-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x256 : Shape := ⟨4, ![16, 128, 128, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S_ : Shape := ⟨0, ![]⟩

class Facts : Prop where
  bcast_S_S16x128x128x256 : S_.BroadcastsInDim S16x128x128x256 (![] : Fin 0 → Fin S16x128x128x256.rank)
  reducesTo_S16x128x128x256_S_d0_1_2_3 : S16x128x128x256.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S32 .f32) (main_arg5 : FVec F S256x256 .f32) (main_arg6 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S16x128x128x256 .f32) (main_arg1 : FVec F S256x32 .f32) (main_arg2 : FVec F S32 .f32) (main_arg3 : FVec F S256x32 .f32) (main_arg4 : FVec F S32 .f32) (main_arg5 : FVec F S256x256 .f32) (main_arg6 : FVec F S256 .f32) : IVec S_ 1 :=
  let main_v0 : FVec F S16x128x128x256 .f32 := Host.absf main_arg0
  let main_cst : FVec F S_ .f32 := constant S_ .f32 0x7F800000#32
  let main_v1 : FVec F S16x128x128x256 .f32 := broadcastInDim S16x128x128x256 ![] bcast_S_S16x128x128x256 main_cst
  let main_v2 : IVec S16x128x128x256 1 := cmpf .olt main_v0 main_v1
  let main_c : IVec S_ 1 := constantI S_ 1 1#1
  let main_v3 : IVec S_ 1 := (fun x v => Host.reduce IntOp.andi x v reducesTo_S16x128x128x256_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_arg5 main_arg6 main_v13 main_v16
-- ==== Kernel.lean ====
abbrev S16x128x128x256 : Shape := ⟨4, ![16, 128, 128, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S2048x128x256 : Shape := ⟨3, ![2048, 128, 256]⟩
abbrev S256x64 : Shape := ⟨2, ![256, 64]⟩
abbrev S64 : Shape := ⟨1, ![64]⟩
abbrev S32x128x256 : Shape := ⟨3, ![32, 128, 256]⟩
abbrev S32x128x32 : Shape := ⟨3, ![32, 128, 32]⟩
abbrev S4096x256 : Shape := ⟨2, ![4096, 256]⟩
abbrev S4096x64 : Shape := ⟨2, ![4096, 64]⟩
abbrev S1x64 : Shape := ⟨2, ![1, 64]⟩
abbrev S1x256 : Shape := ⟨2, ![1, 256]⟩
abbrev S4096x32 : Shape := ⟨2, ![4096, 32]⟩
abbrev S8x128x32 : Shape := ⟨3, ![8, 128, 32]⟩
abbrev S8x128x256 : Shape := ⟨3, ![8, 128, 256]⟩
abbrev S8x128x128 : Shape := ⟨3, ![8, 128, 128]⟩
abbrev S8x128 : Shape := ⟨2, ![8, 128]⟩
abbrev S8x128x1 : Shape := ⟨3, ![8, 128, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x128x128x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S2048x128x256, .f32⟩
  | .hbm, ⟨8, _⟩ => ⟨S256x64, .f32⟩
  | .hbm, ⟨9, _⟩ => ⟨S256x64, .bf16⟩
  | .hbm, ⟨10, _⟩ => ⟨S64, .f32⟩
  | .hbm, ⟨11, _⟩ => ⟨S256x256, .bf16⟩
  | .hbm, ⟨12, _⟩ => ⟨S2048x128x256, .f32⟩
  | .hbm, ⟨13, _⟩ => ⟨S16x128x128x256, .f32⟩
  | .local _ .vmem, ⟨0, _⟩ => ⟨S32x128x256, .f32⟩
  | .local _ .vmem, ⟨1, _⟩ => ⟨S32x128x256, .f32⟩
  | .local _ .vmem, ⟨2, _⟩ => ⟨S256x64, .bf16⟩
  | .local _ .vmem, ⟨3, _⟩ => ⟨S64, .f32⟩
  | .local _ .vmem, ⟨4, _⟩ => ⟨S256x256, .bf16⟩
  | .local _ .vmem, ⟨5, _⟩ => ⟨S256, .f32⟩
  | .local _ .vmem, ⟨6, _⟩ => ⟨S32x128x256, .f32⟩
  | .local _ .vmem, ⟨7, _⟩ => ⟨S32x128x256, .f32⟩
  | .local _ .vmem, ⟨8, _⟩ => ⟨S32x128x32, .bf16⟩
  | .local _ .vmem, ⟨9, _⟩ => ⟨S32x128x32, .bf16⟩
  | .local _ .vmem, ⟨10, _⟩ => ⟨S32x128x256, .bf16⟩
  | _, _ => ⟨S16x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v36 : BitVec 32 := Scalar.addi c0_i32 c4_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8_i32 : BitVec 32 := 8#32
  let v37 : BitVec 32 := Scalar.muli arg10 c8_i32
  v37
def k0_off1 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32 : BitVec 32 := 8#32
  let v37 : BitVec 32 := Scalar.muli arg10 c8_i32
  let v38 : BitVec 32 := v37
  let v39 : Index := Scalar.indexCast v38
  let c0_19 : Index := 0#32
  let c0_20 : Index := 0#32
  ![v39.toNat, 0, 0]
def k0_off2 (k0_t1 : Fin k0_t1_loop.trips) : Fin 3 → Nat :=
  let c0_i32 : BitVec 32 := 0#32
  let c1_i32 : BitVec 32 := 1#32
  let arg10 : BitVec 32 := Scf.iv c0_i32 c1_i32 k0_t1
  let c8_i32 : BitVec 32 := 8#32
  let v37 : BitVec 32 := Scalar.muli arg10 c8_i32
  let v38 : BitVec 32 := v37
  let v43 : Index := Scalar.indexCast v38
  let c0_23 : Index := 0#32
  let c0_24 : Index := 0#32
  ![v43.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x128x128x256_S2048x128x256 : S16x128x128x256.ShapeCasts S2048x128x256
  concatenates_S256x32_S256x32_S256x64_d1 : Shape.Concatenates [S256x32, S256x32] S256x64 1
  bitsLt_bf16_f32 : FTy.bits .bf16 < FTy.bits .f32
  concatenates_S32_S32_S64_d0 : Shape.Concatenates [S32, S32] S64 0
  inb_S32x128x256_S32x128x256_0_0_0 : ∀ a, (![0, 0, 0] : Fin 3 → Nat) a + S32x128x256.size a ≤ S32x128x256.size a
  h_S32x128x256 : 0 < S32x128x256.numel
  shapeCasts_S32x128x256_S32x128x256 : S32x128x256.ShapeCasts S32x128x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S64 : S64.ShapeCasts S64
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S32x128x256_S4096x256 : S32x128x256.ShapeCasts S4096x256
  shapeCasts_S64_S1x64 : S64.ShapeCasts S1x64
  broadcasts_S1x64_S4096x64 : S1x64.Broadcasts S4096x64
  shapeCasts_S256_S1x256 : S256.ShapeCasts S1x256
  broadcasts_S1x256_S4096x256 : S1x256.Broadcasts S4096x256
  slices_S4096x64_o0_0_S4096x32 : S4096x64.Slices ![0, 0] S4096x32
  shapeCasts_S4096x32_S32x128x32 : S4096x32.ShapeCasts S32x128x32
  inb_S32x128x32_S32x128x32_0_0_0 : ∀ a, (![0, 0, 0] : Fin 3 → Nat) a + S32x128x32.size a ≤ S32x128x32.size a
  h_S32x128x32 : 0 < S32x128x32.numel
  shapeCasts_S32x128x32_S32x128x32 : S32x128x32.ShapeCasts S32x128x32
  packedbf16_S32x128x32_S32x128x32_0_0_0 : (Rect.unit (s := S32x128x32) ![0, 0, 0] S32x128x32.size inb_S32x128x32_S32x128x32_0_0_0).PackedRows (EltTy.packing .bf16)
  slices_S4096x64_o0_32_S4096x32 : S4096x64.Slices ![0, 32] S4096x32
  shapeCasts_S4096x256_S32x128x256 : S4096x256.ShapeCasts S32x128x256
  packedbf16_S32x128x256_S32x128x256_0_0_0 : (Rect.unit (s := S32x128x256) ![0, 0, 0] S32x128x256.size inb_S32x128x256_S32x128x256_0_0_0).PackedRows (EltTy.packing .bf16)
  h_S8x128x32 : 0 < S8x128x32.numel
  h_S8x128x256 : 0 < S8x128x256.numel
  reduces_S8x128x128_S8x128 : S8x128x128.Reduces [2] S8x128
  shapeCasts_S8x128_S8x128x1 : S8x128.ShapeCasts S8x128x1
  broadcasts_S8x128x1_S8x128x128 : S8x128x1.Broadcasts S8x128x128
  shapeCasts_S2048x128x256_S16x128x128x256 : S2048x128x256.ShapeCasts S16x128x128x256
  dot_S4096x256_S256x64_S4096x64_1_0_0_1_n_n_wf : DotDims.WF S4096x256 S256x64 S4096x64 [1] [0] [0] [1] [] []
  dot_S4096x256_S256x256_S4096x256_1_0_0_1_n_n_wf : DotDims.WF S4096x256 S256x256 S4096x256 [1] [0] [0] [1] [] []
  dot_S8x128x32_S8x128x32_S8x128x128_2_2_1_1_0_0_wf : DotDims.WF S8x128x32 S8x128x32 S8x128x128 [2] [2] [1] [1] [0] [0]
  dot_S8x128x128_S8x128x256_S8x128x256_2_1_1_2_0_0_wf : DotDims.WF S8x128x128 S8x128x256 S8x128x256 [2] [1] [1] [2] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x128x32.size a ≤ S32x128x32.size a
  k0_off2_inb : ∀ k0_t1 : Fin k0_t1_loop.trips, ∀ a, (k0_off2 k0_t1) a + S8x128x256.size a ≤ S32x128x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x256.size a ≤ S2048x128x256.size a
  hwx0_0 : ∀ i : grid0.Coords, EltTy.bits .f32 = 32 ∨ (Rect.block (s := S2048x128x256) S32x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .bf16 = 32 ∨ (Rect.block (s := S256x64) S256x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128x256.size a ≤ S2048x128x256.size a
  hwx0_5 : ∀ i : grid0.Coords, EltTy.bits .f32 = 32 ∨ (Rect.block (s := S2048x128x256) S32x128x256.size (cc0_transform_5 i) (hinb0_5 i)).WholeWords (EltTy.packing .f32)

variable [Facts₀]

def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8x128x32_S8x128x32_S8x128x128_2_2_1_1_0_0 : DotDims S8x128x32 S8x128x32 S8x128x128 where
  lhsContracting := [2]
  rhsContracting := [2]
  lhsNonContracting := [1]
  rhsNonContracting := [1]
  lhsBatch := [0]
  rhsBatch := [0]
  wf := dot_S8x128x32_S8x128x32_S8x128x128_2_2_1_1_0_0_wf
def dot_S8x128x128_S8x128x256_S8x128x256_2_1_1_2_0_0 : DotDims S8x128x128 S8x128x256 S8x128x256 where
  lhsContracting := [2]
  rhsContracting := [1]
  lhsNonContracting := [1]
  rhsNonContracting := [2]
  lhsBatch := [0]
  rhsBatch := [0]
  wf := dot_S8x128x128_S8x128x256_S8x128x256_2_1_1_2_0_0_wf

abbrev win0_0 : Pipeline.Window sig grid0 :=
  Pipeline.Window.ofSpec (Memref.whole main_v0) S32x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S32x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x128x128x256 : Shape := ⟨4, ![16, 128, 128, 256]⟩
abbrev S256x32 : Shape := ⟨2, ![256, 32]⟩
abbrev S32 : Shape := ⟨1, ![32]⟩
abbrev S256x256 : Shape := ⟨2, ![256, 256]⟩
abbrev S256 : Shape := ⟨1, ![256]⟩
abbrev S16x128x128x32 : Shape := ⟨4, ![16, 128, 128, 32]⟩
abbrev S1x1x1x32 : Shape := ⟨4, ![1, 1, 1, 32]⟩
abbrev S1x1x1x256 : Shape := ⟨4, ![1, 1, 1, 256]⟩
abbrev S16x128x128x128 : Shape := ⟨4, ![16, 128, 128, 128]⟩
abbrev S_ : Shape := ⟨0, ![]⟩
abbrev S16x128x128 : Shape := ⟨3, ![16, 128, 128]⟩
abbrev S16x128x128x1 : Shape := ⟨4, ![16, 128, 128, 1]⟩

abbrev nBuf : Space → Nat
  | .hbm => 35
  | .vmem => 0
  | .smem => 0
  | _ => 0

abbrev bufTy : (tb : Table) → Fin (tcTables nBuf tb) → BufTy
  | .hbm, ⟨0, _⟩ => ⟨S16x128x128x256, .f32⟩
  | .hbm, ⟨1, _⟩ => ⟨S256x32, .f32⟩
  | .hbm, ⟨2, _⟩ => ⟨S32, .f32⟩
  | .hbm, ⟨3, _⟩ => ⟨S256x32, .f32⟩
  | .hbm, ⟨4, _⟩ => ⟨S32, .f32⟩
  | .hbm, ⟨5, _⟩ => ⟨S256x256, .f32⟩
  | .hbm, ⟨6, _⟩ => ⟨S256, .f32⟩
  | .hbm, ⟨7, _⟩ => ⟨S16x128x128x32, .f32⟩
  | .hbm, ⟨8, _⟩ => ⟨S1x1x1x32, .f32⟩
  | .hbm, ⟨9, _⟩ => ⟨S16x128x128x32, .f32⟩
  | .hbm, ⟨10, _⟩ => ⟨S16x128x128x32, .f32⟩
  | .hbm, ⟨11, _⟩ => ⟨S16x128x128x32, .f32⟩
  | .hbm, ⟨12, _⟩ => ⟨S1x1x1x32, .f32⟩
  | .hbm, ⟨13, _⟩ => ⟨S16x128x128x32, .f32⟩
  | .hbm, ⟨14, _⟩ => ⟨S16x128x128x32, .f32⟩
  | .hbm, ⟨15, _⟩ => ⟨S16x128x128x256, .f32⟩
  | .hbm, ⟨16, _⟩ => ⟨S1x1x1x256, .f32⟩
  | .hbm, ⟨17, _⟩ => ⟨S16x128x128x256, .f32⟩
  | .hbm, ⟨18, _⟩ => ⟨S16x128x128x256, .f32⟩
  | .hbm, ⟨19, _⟩ => ⟨S16x128x128x128, .f32⟩
  | .hbm, ⟨20, _⟩ => ⟨S_, .f32⟩
  | .hbm, ⟨21, _⟩ => ⟨S16x128x128, .f32⟩
  | .hbm, ⟨22, _⟩ => ⟨S_, .f32⟩
  | .hbm, ⟨23, _⟩ => ⟨S16x128x128, .f32⟩
  | .hbm, ⟨24, _⟩ => ⟨S16x128x128, .f32⟩
  | .hbm, ⟨25, _⟩ => ⟨S16x128x128x1, .f32⟩
  | .hbm, ⟨26, _⟩ => ⟨S16x128x128x128, .f32⟩
  | .hbm, ⟨27, _⟩ => ⟨S16x128x128x128, .f32⟩
  | .hbm, ⟨28, _⟩ => ⟨S16x128x128x128, .f32⟩
  | .hbm, ⟨29, _⟩ => ⟨S_, .f32⟩
  | .hbm, ⟨30, _⟩ => ⟨S16x128x128, .f32⟩
  | .hbm, ⟨31, _⟩ => ⟨S16x128x128x1, .f32⟩
  | .hbm, ⟨32, _⟩ => ⟨S16x128x128x128, .f32⟩
  | .hbm, ⟨33, _⟩ => ⟨S16x128x128x128, .f32⟩
  | .hbm, ⟨34, _⟩ => ⟨S16x128x128x256, .f32⟩
  | _, _ => ⟨S16x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S16x128x128x32_0_1_2_3 : S1x1x1x32.BroadcastsInDim S16x128x128x32 (![0, 1, 2, 3] : Fin 4 → Fin S16x128x128x32.rank)
  bcast_S256_S1x1x1x256_3 : S256.BroadcastsInDim S1x1x1x256 (![3] : Fin 1 → Fin S1x1x1x256.rank)
  bcast_S1x1x1x256_S16x128x128x256_0_1_2_3 : S1x1x1x256.BroadcastsInDim S16x128x128x256 (![0, 1, 2, 3] : Fin 4 → Fin S16x128x128x256.rank)
  reducesTo_S16x128x128x128_S16x128x128_d3 : S16x128x128x128.ReducesTo [3] S16x128x128
  h_S_ : 0 < S_.numel
  bcast_S_S16x128x128 : S_.BroadcastsInDim S16x128x128 (![] : Fin 0 → Fin S16x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  dot_S16x128x128x256_S256x32_S16x128x128x32_3_0_012_1_n_n_wf : DotDims.WF S16x128x128x256 S256x32 S16x128x128x32 [3] [0] [0, 1, 2] [1] [] []
  dot_S16x128x128x256_S256x256_S16x128x128x256_3_0_012_1_n_n_wf : DotDims.WF S16x128x128x256 S256x256 S16x128x128x256 [3] [0] [0, 1, 2] [1] [] []
  dot_S16x128x128x32_S16x128x128x32_S16x128x128x128_3_3_2_2_01_01_wf : DotDims.WF S16x128x128x32 S16x128x128x32 S16x128x128x128 [3] [3] [2] [2] [0, 1] [0, 1]
  dot_S16x128x128x128_S16x128x128x256_S16x128x128x256_3_2_2_3_01_01_wf : DotDims.WF S16x128x128x128 S16x128x128x256 S16x128x128x256 [3] [2] [2] [3] [0, 1] [0, 1]

variable [Facts₀]

def dot_S16x128x128x256_S256x32_S16x128x128x32_3_0_012_1_n_n : DotDims S16x128x128x256 S256x32 S16x128x128x32 where
  lhsContracting := [3]
  rhsContracting := [0]
  lhsNonContracting := [0, 1, 2]
  rhsNonContracting := [1]
  lhsBatch := []
  rhsBatch := []
  wf := dot_S16x128x128x256_S256x32_S16x128x128x32_3_0_012_1_n_n_wf
def dot_S16x128x128x256_S256x256_S16x128x128x256_3_0_012_1_n_n : DotDims S16x128x128x256 S256x256 S16x128x128x256 where
  lhsContracting := [3]
  rhsContracting := [0]
  lhsNonContracting := [0, 1, 2]
  rhsNonContracting := [1]
  lhsBatch := []
  rhsBatch := []
  wf := dot_S16x128x128x256_S256x256_S16x128x128x256_3_0_012_1_n_n_wf
def dot_S16x128x128x32_S16x128x128x32_S16x128x128x128_3_3_2_2_01_01 : DotDims S16x128x128x32 S16x128x128x32 S16x128x128x128 where
  lhsContracting := [3]
  rhsContracting := [3]
  lhsNonContracting := [2]
  rhsNonContracting := [2]
  lhsBatch := [0, 1]
  rhsBatch := [0, 1]
  wf := dot_S16x128x128x32_S16x128x128x32_S16x128x128x128_3_3_2_2_01_01_wf
def dot_S16x128x128x128_S16x128x128x256_S16x128x128x256_3_2_2_3_01_01 : DotDims S16x128x128x128 S16x128x128x256 S16x128x128x256 where
  lhsContracting := [3]
  rhsContracting := [2]
  lhsNonContracting := [2]
  rhsNonContracting := [3]
  lhsBatch := [0, 1]
  rhsBatch := [0, 1]
  wf := dot_S16x128x128x128_S16x128x128x256_S16x128x128x256_3_2_2_3_01_01_wf

class Facts : Prop extends Facts₀ where

variable [Facts]
-- ==== Proof.AttnSpec.lean ====
/-
  Self-attention over the width axis of one [128, 256] slab, as one function of the slab and the projection
  weights, index by index on the extended reals.

  For a slab `x` (rows `w`, channels `c`):
    q w d = Σ_c x w c · Wq c d + bq d,      k v d = Σ_c x v c · Wk c d + bk d,      val v c = Σ_c' x v c' · Wv c' c + bv c,
    s w v = Σ_d q w d · k v d,
    m w   = the maximum over v of s w v, taken from the value of the word 0xFF800000 (which is never evaluated),
    e w v = exp (s w v − m w),      p w v = e w v / Σ_v' e w v',
    out w c = Σ_v p w v · val v c.
  Both programs compute exactly these sums in this grouping; they differ only in how the 16·128 slabs are
  laid out and batched, so the specification is stated for ONE slab and each side selects its slab.
-/
import Idealize.ShloMosaic.PureOps.Ideal
import Idealize.ShloMosaic.PureOps.Ideal.Laws

noncomputable section

namespace Cert.AttnSpec

open Idealize.ShloMosaic

/-- A linear layer on one row: `Σ_c x w c · W c d + b d`. -/
def lin {n : ℕ} (x : Fin 128 → Fin 256 → EReal) (W : Fin 256 → Fin n → EReal) (b : Fin n → EReal)
    (w : Fin 128) (d : Fin n) : EReal :=
  (∑ c : Fin 256, x w c * W c d) + b d

/-- The score of row `w` against row `v`: the inner product of the query of `w` and the key of `v`. -/
def score (q k : Fin 128 → Fin 32 → EReal) (w v : Fin 128) : EReal :=
  ∑ d : Fin 32, q w d * k v d

/-- The row maximum of the scores, folded from the value of the word `0xFF800000`. -/
def rowMax (s : Fin 128 → Fin 128 → EReal) (w : Fin 128) : EReal :=
  (Finset.univ : Finset (Fin 128)).fold max (Ideal.ofBits .f32 0xFF800000#32) (s w)

/-- The shifted exponential `exp (s w v − m w)`. -/
def expo (s : Fin 128 → Fin 128 → EReal) (w v : Fin 128) : EReal :=
  Ideal.exp (s w v - rowMax s w)

/-- The softmax weight: the shifted exponential over the row's sum of them. -/
def soft (s : Fin 128 → Fin 128 → EReal) (w v : Fin 128) : EReal :=
  Ideal.div (expo s w v) (∑ v' : Fin 128, expo s w v')

/-- The attention output of one slab from its queries, keys and values. -/
def mix (q k : Fin 128 → Fin 32 → EReal) (val : Fin 128 → Fin 256 → EReal) (w : Fin 128) (c : Fin 256) : EReal :=
  ∑ v : Fin 128, soft (score q k) w v * val v c

/-- The attention output of one slab from the slab and the projection weights. -/
def attnOut (x : Fin 128 → Fin 256 → EReal) (Wq : Fin 256 → Fin 32 → EReal) (bq : Fin 32 → EReal)
    (Wk : Fin 256 → Fin 32 → EReal) (bk : Fin 32 → EReal) (Wv : Fin 256 → Fin 256 → EReal) (bv : Fin 256 → EReal)
    (w : Fin 128) (c : Fin 256) : EReal :=
  mix (lin x Wq bq) (lin x Wk bk) (lin x Wv bv) w c

/-- Column `d` of the left half of a 64-wide array (the query half of the fused projection). -/
def lo (d : Fin 32) : Fin 64 := ⟨d.val, by omega⟩

/-- Column `d` of the right half of a 64-wide array (the key half of the fused projection). -/
def hi (d : Fin 32) : Fin 64 := ⟨32 + d.val, by omega⟩

/-- Folding `max` from a value never goes below it, so taking the maximum with that value again changes nothing. -/
theorem max_fold_self {ι : Type*} (S : Finset ι) (a : EReal) (f : ι → EReal) :
    max a (S.fold max a f) = S.fold max a f :=
  max_eq_right (Finset.le_fold_max a |>.mpr (Or.inl le_rfl))

end Cert.AttnSpec

end
-- ==== Proof.RefAttn.lean ====
/-
  The reference program is the specification.

  The reference computes, for every slab `(b, h)` of the input, the three projections `q`, `k`, `val` of the slab's rows,
  the scores `s w v = Σ_d q w d · k v d`, the row maximum of the scores, the shifted exponentials, their row sums, the
  quotients, and the mix `Σ_v p w v · val v c`. Each of these stages is read here at explicit coordinates and identified
  with the corresponding function of the specification; the last theorem chains them.
-/
import proofs.«130289_j64252710748698_2_alg».proof.Proof.Gen.ReferenceIdeal.Read
import proofs.«130289_j64252710748698_2_alg».proof.Proof.AttnSpec
import Idealize.ShloMosaic.Lib.ValueIdx
import Idealize.ShloMosaic.PureOps.Reduce
import Idealize.ShloMosaic.PureOps.Ideal.Laws

noncomputable section

namespace Cert.RefAttn

open Cert.ReferenceIdeal Cert.ReferenceIdeal.Gen Cert.ReferenceIdeal.Read Idealize.ShloMosaic Idealize.ShloMosaic.ValueIdx Cert.AttnSpec

/-- The slab `(b, h)` of a rank-4 array: its rows `w` and channels `c`. -/
abbrev slab (x0 : (⟨S16x128x128x256, .f32⟩ : BufTy).Contents (Elt Ideal)) (b : Fin 16) (h : Fin 128) : Fin 128 → Fin 256 → EReal :=
  fun w c => x0 (ix4 b h w c)

/-- A rank-2 array as a function of its two coordinates. -/
abbrev mat {m n : ℕ} (x : (⟨⟨2, ![m, n]⟩, .f32⟩ : BufTy).Contents (Elt Ideal)) : Fin m → Fin n → EReal :=
  fun i j => x (ix2 i j)

/-- A rank-1 array as a function of its coordinate. -/
abbrev vec {n : ℕ} (x : (⟨⟨1, ![n]⟩, .f32⟩ : BufTy).Contents (Elt Ideal)) : Fin n → EReal :=
  fun i => x (ix1 i)

/-- The query projection of row `w` of slab `(b, h)`. -/
theorem q_apply (x0 : (⟨S16x128x128x256, .f32⟩ : BufTy).Contents (Elt Ideal)) (x1 : (⟨S256x32, .f32⟩ : BufTy).Contents (Elt Ideal)) (x2 : (⟨S32, .f32⟩ : BufTy).Contents (Elt Ideal))
    (b : Fin 16) (h w : Fin 128) (d : Fin 32) :
    val_main_v3 (F := Ideal) x0 x1 x2 (ix4 b h w d) = lin (slab x0 b h) (mat x1) (vec x2) w d := by
  rw [val_main_v3_apply, val_main_v0_apply, val_main_v2_apply, val_main_v1_apply]
  have el : ∀ k : Fin 256, lidx_main_v0 (ix4 b h w d) k = ix4 b h w k := fun k => funext fun a => Fin.ext (by match a with | ⟨0, _⟩ => rfl | ⟨1, _⟩ => rfl | ⟨2, _⟩ => rfl | ⟨3, _⟩ => rfl)
  have er : ∀ k : Fin 256, ridx_main_v0 (ix4 b h w d) k = ix2 k d := fun k => funext fun a => Fin.ext (by match a with | ⟨0, _⟩ => rfl | ⟨1, _⟩ => rfl)
  have eb : idx_main_v1 (idx_main_v2 (ix4 b h w d)) = ix1 d := funext fun a => Fin.ext (by match a with | ⟨0, _⟩ => rfl)
  rw [eb]
  exact congrArg (· + x2 (ix1 d)) (Finset.sum_congr rfl fun k _ => by rw [el k, er k])

/-- The key projection of row `w` of slab `(b, h)`. -/
theorem k_apply (x0 : (⟨S16x128x128x256, .f32⟩ : BufTy).Contents (Elt Ideal)) (x3 : (⟨S256x32, .f32⟩ : BufTy).Contents (Elt Ideal)) (x4 : (⟨S32, .f32⟩ : BufTy).Contents (Elt Ideal))
    (b : Fin 16) (h w : Fin 128) (d : Fin 32) :
    val_main_v7 (F := Ideal) x0 x3 x4 (ix4 b h w d) = lin (slab x0 b h) (mat x3) (vec x4) w d := by
  rw [val_main_v7_apply, val_main_v4_apply, val_main_v6_apply, val_main_v5_apply]
  have el : ∀ k : Fin 256, lidx_main_v4 (ix4 b h w d) k = ix4 b h w k := fun k => funext fun a => Fin.ext (by match a with | ⟨0, _⟩ => rfl | ⟨1, _⟩ => rfl | ⟨2, _⟩ => rfl | ⟨3, _⟩ => rfl)
  have er : ∀ k : Fin 256, ridx_main_v4 (ix4 b h w d) k = ix2 k d := fun k => funext fun a => Fin.ext (by match a with | ⟨0, _⟩ => rfl | ⟨1, _⟩ => rfl)
  have eb : idx_main_v5 (idx_main_v6 (ix4 b h w d)) = ix1 d := funext fun a => Fin.ext (by match a with | ⟨0, _⟩ => rfl)
  rw [eb]
  exact congrArg (· + x4 (ix1 d)) (Finset.sum_congr rfl fun k _ => by rw [el k, er k])

/-- The value projection of row `w` of slab `(b, h)`. -/
theorem v_apply (x0 : (⟨S16x128x128x256, .f32⟩ : BufTy).Contents (Elt Ideal)) (x5 : (⟨S256x256, .f32⟩ : BufTy).Contents (Elt Ideal)) (x6 : (⟨S256, .f32⟩ : BufTy).Contents (Elt Ideal))
    (b : Fin 16) (h w : Fin 128) (d : Fin 256) :
    val_main_v11 (F := Ideal) x0 x5 x6 (ix4 b h w d) = lin (slab x0 b h) (mat x5) (vec x6) w d := by
  rw [val_main_v11_apply, val_main_v8_apply, val_main_v10_apply, val_main_v9_apply]
  have el : ∀ k : Fin 256, lidx_main_v8 (ix4 b h w d) k = ix4 b h w k := fun k => funext fun a => Fin.ext (by match a with | ⟨0, _⟩ => rfl | ⟨1, _⟩ => rfl | ⟨2, _⟩ => rfl | ⟨3, _⟩ => rfl)
  have er : ∀ k : Fin 256, ridx_main_v8 (ix4 b h w d) k = ix2 k d := fun k => funext fun a => Fin.ext (by match a with | ⟨0, _⟩ => rfl | ⟨1, _⟩ => rfl)
  have eb : idx_main_v9 (idx_main_v10 (ix4 b h w d)) = ix1 d := funext fun a => Fin.ext (by match a with | ⟨0, _⟩ => rfl)
  rw [eb]
  exact congrArg (· + x6 (ix1 d)) (Finset.sum_congr rfl fun k _ => by rw [el k, er k])

/-- The scores of slab `(b, h)`: the inner products of its query rows with its key rows. -/
abbrev sc (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h : Fin 128) : Fin 128 → Fin 128 → EReal :=
  score (lin (slab x0 b h) (mat x1) (vec x2)) (lin (slab x0 b h) (mat x3) (vec x4))

/-- The score of row `w` against row `v` of slab `(b, h)`. -/
theorem score_apply (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w v : Fin 128) :
    val_main_v12 (F := Ideal) x0 x1 x2 x3 x4 (ix4 b h w v) = sc x0 x1 x2 x3 x4 b h w v := by
  rw [val_main_v12_apply]
  have el : ∀ k : Fin 32, lidx_main_v12 (ix4 b h w v) k = ix4 b h w k := fun k => funext fun a => Fin.ext (by match a with | ⟨0, _⟩ => rfl | ⟨1, _⟩ => rfl | ⟨2, _⟩ => rfl | ⟨3, _⟩ => rfl)
  have er : ∀ k : Fin 32, ridx_main_v12 (ix4 b h w v) k = ix4 b h v k := fun k => funext fun a => Fin.ext (by match a with | ⟨0, _⟩ => rfl | ⟨1, _⟩ => rfl | ⟨2, _⟩ => rfl | ⟨3, _⟩ => rfl)
  exact Finset.sum_congr rfl fun k _ => by rw [el k, er k, q_apply, k_apply]

/-- The last axis of a rank-4 array of scores is dropped by the row reductions. -/
theorem reduces_d3 : S16x128x128x128.Reduces [3] S16x128x128 := by decide

/-- The index over `(b, h, w)` with coordinate `v` inserted on the dropped axis is `(b, h, w, v)`. -/
theorem lift_d3 (b : Fin 16) (h w : Fin 128) (v : Fin 128) :
    reduces_d3.lift (ix3 b h w) v = ix4 b h w v := funext fun a => Fin.ext (by match a with | ⟨0, _⟩ => rfl | ⟨1, _⟩ => rfl | ⟨2, _⟩ => rfl | ⟨3, _⟩ => rfl)

/-- A maximum-reduction over the last axis, read at `(b, h, w)`: the fold of `max` from the initial value over the row. -/
theorem reduceMax_apply (y : (⟨S16x128x128x128, .f32⟩ : BufTy).Contents (Elt Ideal)) (c : (⟨S_, .f32⟩ : BufTy).Contents (Elt Ideal))
    (b : Fin 16) (h w : Fin 128) :
    Host.reduce (FloatOps.maximumf (F := Ideal) (φ := .f32)) y c reducesTo_S16x128x128x128_S16x128x128_d3 h_S_ (ix3 b h w)
      = (Finset.univ : Finset (Fin 128)).fold max (c (Shape.Idx.first h_S_)) (fun v => y (ix4 b h w v)) := by
  refine (Host.reduce_eq_fold_single _ y c reducesTo_S16x128x128x128_S16x128x128_d3 reduces_d3 h_S_ (ix3 b h w)).trans ?_
  have e : (y ∘ reduces_d3.lift (ix3 b h w)) = fun v : Fin 128 => y (ix4 b h w v) :=
    funext fun v => congrArg y (lift_d3 b h w v)
  rw [e]
  rfl

/-- The row maximum of the scores of slab `(b, h)`: the reduction starts from the value of the word `0xFF800000`, and the
    further maximum with that same value changes nothing. -/
theorem max_apply (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w : Fin 128) :
    val_main_v15 (F := Ideal) x0 x1 x2 x3 x4 (ix3 b h w) = rowMax (sc x0 x1 x2 x3 x4 b h) w := by
  rw [val_main_v15_apply, val_main_v14_apply, val_main_cst_0_apply]
  unfold val_main_v13
  rw [reduceMax_apply, val_main_cst_apply]
  have e : (fun v : Fin 128 => val_main_v12 (F := Ideal) x0 x1 x2 x3 x4 (ix4 b h w v)) = sc x0 x1 x2 x3 x4 b h w :=
    funext fun v => score_apply x0 x1 x2 x3 x4 b h w v
  rw [e]
  exact max_fold_self _ _ _

/-- The shifted exponential of the score of row `w` against row `v`. -/
theorem expo_apply (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w v : Fin 128) :
    val_main_v19 (F := Ideal) x0 x1 x2 x3 x4 (ix4 b h w v) = expo (sc x0 x1 x2 x3 x4 b h) w v := by
  rw [val_main_v19_apply, val_main_v18_apply, val_main_v17_apply, val_main_v16_apply]
  have e : idx_main_v16 (idx_main_v17 (ix4 b h w v)) = ix3 b h w := funext fun a => Fin.ext (by match a with | ⟨0, _⟩ => rfl | ⟨1, _⟩ => rfl | ⟨2, _⟩ => rfl)
  rw [e, score_apply, max_apply]
  rfl

/-- The row sum of the shifted exponentials: the reduction starts from zero. -/
theorem sum_apply (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w : Fin 128) :
    val_main_v20 (F := Ideal) x0 x1 x2 x3 x4 (ix3 b h w) = ∑ v' : Fin 128, expo (sc x0 x1 x2 x3 x4 b h) w v' := by
  rw [val_main_v20_apply, val_main_cst_1_apply, Ideal.ofBits_def, Ideal.ofBits_zero_f32, zero_add]
  have e : ∀ k : Fin 128, idx_main_v20 (ix3 b h w) k = ix4 b h w k := fun k => funext fun a => Fin.ext (by match a with | ⟨0, _⟩ => rfl | ⟨1, _⟩ => rfl | ⟨2, _⟩ => rfl | ⟨3, _⟩ => rfl)
  exact Finset.sum_congr rfl fun k _ => by rw [e k, expo_apply]

/-- The softmax weight of row `w` on row `v`. -/
theorem soft_apply (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (b : Fin 16) (h w v : Fin 128) :
    val_main_v23 (F := Ideal) x0 x1 x2 x3 x4 (ix4 b h w v) = soft (sc x0 x1 x2 x3 x4 b h) w v := by
  rw [val_main_v23_apply, val_main_v22_apply, val_main_v21_apply]
  have e : idx_main_v21 (idx_main_v22 (ix4 b h w v)) = ix3 b h w := funext fun a => Fin.ext (by match a with | ⟨0, _⟩ => rfl | ⟨1, _⟩ => rfl | ⟨2, _⟩ => rfl)
  rw [e, expo_apply, sum_apply]
  rfl

/-- The reference's output at `(b, h, w, c)` is the attention output of slab `(b, h)` at `(w, c)`. -/
theorem ref_apply (x0 : (⟨S16x128x128x256, .f32⟩ : BufTy).Contents (Elt Ideal)) (x1 : (⟨S256x32, .f32⟩ : BufTy).Contents (Elt Ideal)) (x2 : (⟨S32, .f32⟩ : BufTy).Contents (Elt Ideal)) (x3 : (⟨S256x32, .f32⟩ : BufTy).Contents (Elt Ideal)) (x4 : (⟨S32, .f32⟩ : BufTy).Contents (Elt Ideal)) (x5 : (⟨S256x256, .f32⟩ : BufTy).Contents (Elt Ideal)) (x6 : (⟨S256, .f32⟩ : BufTy).Contents (Elt Ideal)) (b : Fin 16) (h w : Fin 128) (c : Fin 256) :
    val_main_v24 (F := Ideal) x0 x1 x2 x3 x4 x5 x6 (ix4 b h w c)
      = Cert.AttnSpec.attnOut (fun w' c' => x0 (ix4 b h w' c')) (fun c' d => x1 (ix2 c' d)) (fun d => x2 (ix1 d)) (fun c' d => x3 (ix2 c' d)) (fun d => x4 (ix1 d)) (fun c' c'' => x5 (ix2 c' c'')) (fun c' => x6 (ix1 c')) w c := by
  rw [val_main_v24_apply]
  unfold attnOut mix
  have el : ∀ k : Fin 128, lidx_main_v24 (ix4 b h w c) k = ix4 b h w k := fun k => funext fun a => Fin.ext (by match a with | ⟨0, _⟩ => rfl | ⟨1, _⟩ => rfl | ⟨2, _⟩ => rfl | ⟨3, _⟩ => rfl)
  have er : ∀ k : Fin 128, ridx_main_v24 (ix4 b h w c) k = ix4 b h k c := fun k => funext fun a => Fin.ext (by match a with | ⟨0, _⟩ => rfl | ⟨1, _⟩ => rfl | ⟨2, _⟩ => rfl | ⟨3, _⟩ => rfl)
  exact Finset.sum_congr rfl fun k _ => by rw [el k, er k, soft_apply, v_apply]

end Cert.RefAttn

end
-- ==== Proof.KernelPay.lean ====
/-
  The kernel body's payloads read at an index.

  The body first projects every slab: the input `[32, 128, 256]` is flattened to 4096 rows, multiplied into zeros by the
  fused query/key weights `[256, 64]` and by the value weights `[256, 256]`, a bias is added along the rows, and the
  results are recast to slabs — the left 32 columns of the fused product are the queries, the right 32 the keys. Row
  `128·g + w` of the 4096 is row `w` of slab `g`, so each projection at `(g, w, ·)` is the linear layer of the
  specification on slab `g`.

  One trip of the attention stage then works on a chunk of 8 slabs: the scores are the batched product of the queries
  with the keys, `s w v = Σ_d q w d · k v d`; each row's maximum is folded from the value of the word `0xFF800000`
  (the same word on both sides, never evaluated), subtracted, and exponentiated; the row's sum of the exponentials
  (from the zero word) divides them; and the batched product of these weights with the values is the output. Every
  reduction is over the last axis, kept as a unit axis and broadcast back, so at `(g, w, c)` the trip computes the
  specification's attention output of slab `g`.
-/
import proofs.«130289_j64252710748698_2_alg».proof.Proof.Gen.KernelIdeal.Skeleton
import proofs.«130289_j64252710748698_2_alg».proof.Proof.AttnSpec
import Idealize.ShloMosaic.Lib.Pipeline.Value
import Idealize.ShloMosaic.Lib.ValueIdx
import Idealize.ShloMosaic.PureOps.Ideal.Laws

noncomputable section

namespace Cert.KernelPay

open Cert.KernelIdeal Cert.KernelIdeal.Gen Idealize.ShloMosaic Idealize.ShloMosaic.ValueIdx

/-! ## The 4096 rows as 32 slabs of 128 rows -/

/-- Row `w` of slab `g` among the 4096 rows of the flattened array: row `128·g + w`. -/
def row (g : Fin 32) (w : Fin 128) : Fin 4096 := ⟨128 * g.val + w.val, by omega⟩

/-- The flattened input at row `128·g + w` is the input at slab `g`, row `w` (the recast is row-major and the
    format change is the identity on extended reals). -/
theorem pay2_apply (v0 : Vec Ideal S32x128x256 .f32) (g : Fin 32) (w : Fin 128) (c : Fin 256) :
    k0_pay2 (F := Ideal) v0 (ix2 (row g w) c) = v0 (ix3 g w c) := by
  unfold k0_pay2
  refine (shapeCast_apply _ _ (ix2 (row g w) c) (ix3 g w c) ?_).trans ?_
  · rw [Shape.rowMajor_val_three, Shape.rowMajor_val_two]
    show (g.val * 128 + w.val) * 256 + c.val = (128 * g.val + w.val) * 256 + c.val
    omega
  · refine (truncf_apply (ψ := .bf16) _ bitsLt_bf16_f32 (ix3 g w c)).trans ?_
    rw [shapeCast_self]

/-! ## The two projections' products: rows times a weight matrix, into zeros -/

theorem mm64_lhs0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide),
    dif_pos (show (0 : Fin S4096x256.rank) ∈ dot_S4096x256_S256x64_S4096x64_1_0_0_1_n_n.lhsNonContracting by decide)]
  rfl
theorem mm64_lhs1 (i : S4096x64.Idx) (q : dot_S4096x256_S256x64_S4096x64_1_0_0_1_n_n.contr.Idx) :
    (dot_S4096x256_S256x64_S4096x64_1_0_0_1_n_n.lhsIdx i q 1).val = (q ⟨0, by decide⟩).val :=
  dot_S4096x256_S256x64_S4096x64_1_0_0_1_n_n.lhsIdx_val_of_single rfl i q
theorem mm64_rhs0 (i : S4096x64.Idx) (q : dot_S4096x256_S256x64_S4096x64_1_0_0_1_n_n.contr.Idx) :
    (dot_S4096x256_S256x64_S4096x64_1_0_0_1_n_n.rhsIdx i q 0).val = (q ⟨0, by decide⟩).val :=
  dot_S4096x256_S256x64_S4096x64_1_0_0_1_n_n.rhsIdx_val_of_single rfl i q
theorem mm64_rhs1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide),
    dif_pos (show (1 : Fin S256x64.rank) ∈ dot_S4096x256_S256x64_S4096x64_1_0_0_1_n_n.rhsNonContracting by decide)]
  rfl

/-- The fused query/key product at row `r`, column `j`: the sum over the 256 channels of the row's entries times the weight column's. -/
theorem mm64_apply (x : FVec Ideal S4096x256 .bf16) (y : FVec Ideal S256x64 .bf16) (r : Fin 4096) (j : Fin 64) :
    matmul dot_S4096x256_S256x64_S4096x64_1_0_0_1_n_n none x y (constant (F := Ideal) S4096x64 .f32 0x00000000#32) (ix2 r j)
      = ∑ k : Fin 256, x (ix2 r k) * y (ix2 k j) := by
  refine (Ideal.matmul_constant_zero_apply dot_S4096x256_S256x64_S4096x64_1_0_0_1_n_n none x y (ix2 r j)).trans ?_
  rw [← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 r j) ((contrEquiv1 dot_S4096x256_S256x64_S4096x64_1_0_0_1_n_n 256 rfl rfl).symm k) = ix2 r k :=
    funext fun a => Fin.ext (by
      match a with
      | ⟨0, _⟩ => exact mm64_lhs0 _ _
      | ⟨1, _⟩ => exact (mm64_lhs1 _ _).trans hk)
  have er : dot_S4096x256_S256x64_S4096x64_1_0_0_1_n_n.rhsIdx (ix2 r j) ((contrEquiv1 dot_S4096x256_S256x64_S4096x64_1_0_0_1_n_n 256 rfl rfl).symm k) = ix2 k j :=
    funext fun a => Fin.ext (by
      match a with
      | ⟨0, _⟩ => exact (mm64_rhs0 _ _).trans hk
      | ⟨1, _⟩ => exact mm64_rhs1 _ _)
  rw [el, er]

theorem mm256_lhs0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem mm256_lhs1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem mm256_rhs0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem mm256_rhs1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- The value product at row `r`, column `j`: the sum over the 256 channels of the row's entries times the weight column's. -/
theorem mm256_apply (x : FVec Ideal S4096x256 .bf16) (y : FVec Ideal S256x256 .bf16) (r : Fin 4096) (j : Fin 256) :
    matmul dot_S4096x256_S256x256_S4096x256_1_0_0_1_n_n none x y (constant (F := Ideal) S4096x256 .f32 0x00000000#32) (ix2 r j)
      = ∑ k : Fin 256, x (ix2 r k) * y (ix2 k j) := by
  refine (Ideal.matmul_constant_zero_apply dot_S4096x256_S256x256_S4096x256_1_0_0_1_n_n none x y (ix2 r j)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r j) ((contrEquiv1 dot_S4096x256_S256x256_S4096x256_1_0_0_1_n_n 256 rfl rfl).symm k) = ix2 r k :=
    funext fun a => Fin.ext (by
      match a with
      | ⟨0, _⟩ => exact mm256_lhs0 _ _
      | ⟨1, _⟩ => exact (mm256_lhs1 _ _).trans hk)
  have er : dot_S4096x256_S256x256_S4096x256_1_0_0_1_n_n.rhsIdx (ix2 r j) ((contrEquiv1 dot_S4096x256_S256x256_S4096x256_1_0_0_1_n_n 256 rfl rfl).symm k) = ix2 k j :=
    funext fun a => Fin.ext (by
      match a with
      | ⟨0, _⟩ => exact (mm256_rhs0 _ _).trans hk
      | ⟨1, _⟩ => exact mm256_rhs1 _ _)
  rw [el, er]

/-! ## The projections at a row of a slab -/

/-- A bias of length `n`, recast `[n] → [1, n]` and broadcast down the 4096 rows, reads the bias at the column. -/
theorem bias64_apply (v5 : Vec Ideal S64 .f32) (r : Fin 4096) (j : Fin 64) :
    broadcastTo S4096x64 (shapeCast S1x64 (shapeCast S64 v5 shapeCasts_S64_S64) shapeCasts_S64_S1x64)
      broadcasts_S1x64_S4096x64 (ix2 r j) = v5 (ix1 j) := by
  refine (broadcastTo_apply _ _ (ix2 r j) (ix2 (0 : Fin 1) j) ?_).trans ?_
  · intro a
    match a with
    | ⟨0, _⟩ => rfl
    | ⟨1, _⟩ => rfl
  · refine (shapeCast_apply _ _ (ix2 (0 : Fin 1) j) (ix1 j) ?_).trans ?_
    · rw [Shape.rowMajor_val_one, Shape.rowMajor_val_two]
      show j.val = 0 * 64 + j.val
      omega
    · rw [shapeCast_self]

theorem bias256_apply (v9 : Vec Ideal S256 .f32) (r : Fin 4096) (j : Fin 256) :
    broadcastTo S4096x256 (shapeCast S1x256 v9 shapeCasts_S256_S1x256)
      broadcasts_S1x256_S4096x256 (ix2 r j) = v9 (ix1 j) := by
  refine (broadcastTo_apply _ _ (ix2 r j) (ix2 (0 : Fin 1) j) ?_).trans ?_
  · intro a
    match a with
    | ⟨0, _⟩ => rfl
    | ⟨1, _⟩ => rfl
  · refine shapeCast_apply _ _ (ix2 (0 : Fin 1) j) (ix1 j) ?_
    rw [Shape.rowMajor_val_one, Shape.rowMajor_val_two]
    show j.val = 0 * 256 + j.val
    omega

/-- The fused query/key projection at row `128·g + w`, column `j` of the 64: the slab's row against column `j` of
    the fused weights, plus the fused bias at `j`. -/
theorem pay3_apply (v0 : Vec Ideal S32x128x256 .f32) (v3 : Vec Ideal S256x64 .bf16) (v5 : Vec Ideal S64 .f32)
    (g : Fin 32) (w : Fin 128) (j : Fin 64) :
    k0_pay3 (F := Ideal) v0 v3 v5 (ix2 (row g w) j)
      = (∑ k : Fin 256, v0 (ix3 g w k) * v3 (ix2 k j)) + v5 (ix1 j) := by
  unfold k0_pay3
  refine (addf_apply _ _ (ix2 (row g w) j)).trans ?_
  refine congrArg₂ (· + ·) ?_ (bias64_apply v5 (row g w) j)
  refine (mm64_apply (k0_pay2 (F := Ideal) v0) _ (row g w) j).trans ?_
  exact Finset.sum_congr rfl fun k _ => by rw [pay2_apply, shapeCast_self]

/-- Slab `g`, row `w`, column `d` of a `[4096, 32]` array recast `[32, 128, 32]` is its row `128·g + w`. -/
theorem recast32_apply (x : FVec Ideal S4096x32 .bf16) (g : Fin 32) (w : Fin 128) (d : Fin 32) :
    shapeCast S32x128x32 (shapeCast S32x128x32 x shapeCasts_S4096x32_S32x128x32) shapeCasts_S32x128x32_S32x128x32 (ix3 g w d)
      = x (ix2 (row g w) d) := by
  rw [shapeCast_self]
  refine shapeCast_apply _ _ (ix3 g w d) (ix2 (row g w) d) ?_
  rw [Shape.rowMajor_val_three, Shape.rowMajor_val_two]
  show (128 * g.val + w.val) * 32 + d.val = (g.val * 128 + w.val) * 32 + d.val
  omega

theorem pay4_apply (v0 : Vec Ideal S32x128x256 .f32) (v3 : Vec Ideal S256x64 .bf16) (v5 : Vec Ideal S64 .f32)
    (g : Fin 32) (w : Fin 128) (d : Fin 32) :
    k0_pay4 (F := Ideal) v0 v3 v5 (ix3 g w d)
      = Cert.AttnSpec.lin (fun w' c' => v0 (ix3 g w' c')) (fun c' d' => v3 (ix2 c' (Cert.AttnSpec.lo d')))
          (fun d' => v5 (ix1 (Cert.AttnSpec.lo d'))) w d := by
  unfold k0_pay4
  refine (recast32_apply _ g w d).trans ?_
  refine (truncf_apply (ψ := .bf16) _ bitsLt_bf16_f32 _).trans ?_
  refine (extractStridedSlice_apply _ _ _ (ix2 (row g w) d) (ix2 (row g w) (Cert.AttnSpec.lo d)) ?_).trans ?_
  · intro a
    match a with
    | ⟨0, _⟩ => show 128 * g.val + w.val = 0 + (128 * g.val + w.val); omega
    | ⟨1, _⟩ => show d.val = 0 + d.val; omega
  · exact pay3_apply v0 v3 v5 g w (Cert.AttnSpec.lo d)

theorem pay5_apply (v0 : Vec Ideal S32x128x256 .f32) (v3 : Vec Ideal S256x64 .bf16) (v5 : Vec Ideal S64 .f32)
    (g : Fin 32) (w : Fin 128) (d : Fin 32) :
    k0_pay5 (F := Ideal) v0 v3 v5 (ix3 g w d)
      = Cert.AttnSpec.lin (fun w' c' => v0 (ix3 g w' c')) (fun c' d' => v3 (ix2 c' (Cert.AttnSpec.hi d')))
          (fun d' => v5 (ix1 (Cert.AttnSpec.hi d'))) w d := by
  unfold k0_pay5
  refine (recast32_apply _ g w d).trans ?_
  refine (truncf_apply (ψ := .bf16) _ bitsLt_bf16_f32 _).trans ?_
  refine (extractStridedSlice_apply _ _ _ (ix2 (row g w) d) (ix2 (row g w) (Cert.AttnSpec.hi d)) ?_).trans ?_
  · intro a
    match a with
    | ⟨0, _⟩ => show 128 * g.val + w.val = 0 + (128 * g.val + w.val); omega
    | ⟨1, _⟩ => show 32 + d.val = 32 + d.val; rfl
  · exact pay3_apply v0 v3 v5 g w (Cert.AttnSpec.hi d)

theorem pay6_apply (v0 : Vec Ideal S32x128x256 .f32) (v7 : Vec Ideal S256x256 .bf16) (v9 : Vec Ideal S256 .f32)
    (g : Fin 32) (w : Fin 128) (c : Fin 256) :
    k0_pay6 (F := Ideal) v0 v7 v9 (ix3 g w c)
      = Cert.AttnSpec.lin (fun w' c' => v0 (ix3 g w' c')) (fun c' c'' => v7 (ix2 c' c'')) (fun c' => v9 (ix1 c')) w c := by
  unfold k0_pay6
  refine (congrFun (shapeCast_self _ _) (ix3 g w c)).trans ?_
  refine (shapeCast_apply _ _ (ix3 g w c) (ix2 (row g w) c) ?_).trans ?_
  · rw [Shape.rowMajor_val_three, Shape.rowMajor_val_two]
    show (128 * g.val + w.val) * 256 + c.val = (g.val * 128 + w.val) * 256 + c.val
    omega
  · refine (truncf_apply (ψ := .bf16) _ bitsLt_bf16_f32 _).trans ?_
    refine (addf_apply _ _ (ix2 (row g w) c)).trans ?_
    refine congrArg₂ (· + ·) ?_ (bias256_apply v9 (row g w) c)
    refine (mm256_apply (k0_pay2 (F := Ideal) v0) _ (row g w) c).trans ?_
    exact Finset.sum_congr rfl fun k _ => by rw [pay2_apply, shapeCast_self]

/-! ## One trip of the attention stage: the two batched products -/

theorem qk_lhs0 (i : S8x128x128.Idx) (q : dot_S8x128x32_S8x128x32_S8x128x128_2_2_1_1_0_0.contr.Idx) :
    (dot_S8x128x32_S8x128x32_S8x128x128_2_2_1_1_0_0.lhsIdx i q 0).val = (i 0).val := by
  unfold DotDims.lhsIdx
  rw [dif_pos (show (0 : Fin S8x128x32.rank) ∈ dot_S8x128x32_S8x128x32_S8x128x128_2_2_1_1_0_0.lhsBatch by decide)]
  rfl
theorem qk_lhs1 (i : S8x128x128.Idx) (q : dot_S8x128x32_S8x128x32_S8x128x128_2_2_1_1_0_0.contr.Idx) :
    (dot_S8x128x32_S8x128x32_S8x128x128_2_2_1_1_0_0.lhsIdx i q 1).val = (i 1).val := by
  unfold DotDims.lhsIdx
  rw [dif_neg (show ¬(1 : Fin S8x128x32.rank) ∈ dot_S8x128x32_S8x128x32_S8x128x128_2_2_1_1_0_0.lhsBatch by decide),
    dif_pos (show (1 : Fin S8x128x32.rank) ∈ dot_S8x128x32_S8x128x32_S8x128x128_2_2_1_1_0_0.lhsNonContracting by decide)]
  rfl
theorem qk_lhs2 (i : S8x128x128.Idx) (q : dot_S8x128x32_S8x128x32_S8x128x128_2_2_1_1_0_0.contr.Idx) :
    (dot_S8x128x32_S8x128x32_S8x128x128_2_2_1_1_0_0.lhsIdx i q 2).val = (q ⟨0, by decide⟩).val :=
  dot_S8x128x32_S8x128x32_S8x128x128_2_2_1_1_0_0.lhsIdx_val_of_single rfl i q
theorem qk_rhs0 (i : S8x128x128.Idx) (q : dot_S8x128x32_S8x128x32_S8x128x128_2_2_1_1_0_0.contr.Idx) :
    (dot_S8x128x32_S8x128x32_S8x128x128_2_2_1_1_0_0.rhsIdx i q 0).val = (i 0).val := by
  unfold DotDims.rhsIdx
  rw [dif_pos (show (0 : Fin S8x128x32.rank) ∈ dot_S8x128x32_S8x128x32_S8x128x128_2_2_1_1_0_0.rhsBatch by decide)]
  rfl
theorem qk_rhs1 (i : S8x128x128.Idx) (q : dot_S8x128x32_S8x128x32_S8x128x128_2_2_1_1_0_0.contr.Idx) :
    (dot_S8x128x32_S8x128x32_S8x128x128_2_2_1_1_0_0.rhsIdx i q 1).val = (i 2).val := by
  unfold DotDims.rhsIdx
  rw [dif_neg (show ¬(1 : Fin S8x128x32.rank) ∈ dot_S8x128x32_S8x128x32_S8x128x128_2_2_1_1_0_0.rhsBatch by decide),
    dif_pos (show (1 : Fin S8x128x32.rank) ∈ dot_S8x128x32_S8x128x32_S8x128x128_2_2_1_1_0_0.rhsNonContracting by decide)]
  rfl
theorem qk_rhs2 (i : S8x128x128.Idx) (q : dot_S8x128x32_S8x128x32_S8x128x128_2_2_1_1_0_0.contr.Idx) :
    (dot_S8x128x32_S8x128x32_S8x128x128_2_2_1_1_0_0.rhsIdx i q 2).val = (q ⟨0, by decide⟩).val :=
  dot_S8x128x32_S8x128x32_S8x128x128_2_2_1_1_0_0.rhsIdx_val_of_single rfl i q

/-- The scores of slab `g`: row `w` of the left operand against row `v` of the right, summed over the 32 features. -/
theorem qk_apply (x : FVec Ideal S8x128x32 .bf16) (y : FVec Ideal S8x128x32 .bf16) (g : Fin 8) (w v : Fin 128) :
    matmul dot_S8x128x32_S8x128x32_S8x128x128_2_2_1_1_0_0 none x y (constant (F := Ideal) S8x128x128 .f32 0x00000000#32) (ix3 g w v)
      = ∑ d : Fin 32, x (ix3 g w d) * y (ix3 g v d) := by
  refine (Ideal.matmul_constant_zero_apply dot_S8x128x32_S8x128x32_S8x128x128_2_2_1_1_0_0 none x y (ix3 g w v)).trans ?_
  rw [← Equiv.sum_comp (contrEquiv1 dot_S8x128x32_S8x128x32_S8x128x128_2_2_1_1_0_0 32 rfl rfl).symm]
  refine Finset.sum_congr rfl fun d _ => ?_
  have hk := contrEquiv1_symm_val dot_S8x128x32_S8x128x32_S8x128x128_2_2_1_1_0_0 32 rfl rfl d
  have el : dot_S8x128x32_S8x128x32_S8x128x128_2_2_1_1_0_0.lhsIdx (ix3 g w v) ((contrEquiv1 dot_S8x128x32_S8x128x32_S8x128x128_2_2_1_1_0_0 32 rfl rfl).symm d) = ix3 g w d :=
    funext fun a => Fin.ext (by
      match a with
      | ⟨0, _⟩ => exact qk_lhs0 _ _
      | ⟨1, _⟩ => exact qk_lhs1 _ _
      | ⟨2, _⟩ => exact (qk_lhs2 _ _).trans hk)
  have er : dot_S8x128x32_S8x128x32_S8x128x128_2_2_1_1_0_0.rhsIdx (ix3 g w v) ((contrEquiv1 dot_S8x128x32_S8x128x32_S8x128x128_2_2_1_1_0_0 32 rfl rfl).symm d) = ix3 g v d :=
    funext fun a => Fin.ext (by
      match a with
      | ⟨0, _⟩ => exact qk_rhs0 _ _
      | ⟨1, _⟩ => exact qk_rhs1 _ _
      | ⟨2, _⟩ => exact (qk_rhs2 _ _).trans hk)
  rw [el, er]

theorem pv_lhs0 (i : S8x128x256.Idx) (q : dot_S8x128x128_S8x128x256_S8x128x256_2_1_1_2_0_0.contr.Idx) :
    (dot_S8x128x128_S8x128x256_S8x128x256_2_1_1_2_0_0.lhsIdx i q 0).val = (i 0).val := by
  unfold DotDims.lhsIdx
  rw [dif_pos (show (0 : Fin S8x128x128.rank) ∈ dot_S8x128x128_S8x128x256_S8x128x256_2_1_1_2_0_0.lhsBatch by decide)]
  rfl
theorem pv_lhs1 (i : S8x128x256.Idx) (q : dot_S8x128x128_S8x128x256_S8x128x256_2_1_1_2_0_0.contr.Idx) :
    (dot_S8x128x128_S8x128x256_S8x128x256_2_1_1_2_0_0.lhsIdx i q 1).val = (i 1).val := by
  unfold DotDims.lhsIdx
  rw [dif_neg (show ¬(1 : Fin S8x128x128.rank) ∈ dot_S8x128x128_S8x128x256_S8x128x256_2_1_1_2_0_0.lhsBatch by decide),
    dif_pos (show (1 : Fin S8x128x128.rank) ∈ dot_S8x128x128_S8x128x256_S8x128x256_2_1_1_2_0_0.lhsNonContracting by decide)]
  rfl
theorem pv_lhs2 (i : S8x128x256.Idx) (q : dot_S8x128x128_S8x128x256_S8x128x256_2_1_1_2_0_0.contr.Idx) :
    (dot_S8x128x128_S8x128x256_S8x128x256_2_1_1_2_0_0.lhsIdx i q 2).val = (q ⟨0, by decide⟩).val :=
  dot_S8x128x128_S8x128x256_S8x128x256_2_1_1_2_0_0.lhsIdx_val_of_single rfl i q
theorem pv_rhs0 (i : S8x128x256.Idx) (q : dot_S8x128x128_S8x128x256_S8x128x256_2_1_1_2_0_0.contr.Idx) :
    (dot_S8x128x128_S8x128x256_S8x128x256_2_1_1_2_0_0.rhsIdx i q 0).val = (i 0).val := by
  unfold DotDims.rhsIdx
  rw [dif_pos (show (0 : Fin S8x128x256.rank) ∈ dot_S8x128x128_S8x128x256_S8x128x256_2_1_1_2_0_0.rhsBatch by decide)]
  rfl
theorem pv_rhs1 (i : S8x128x256.Idx) (q : dot_S8x128x128_S8x128x256_S8x128x256_2_1_1_2_0_0.contr.Idx) :
    (dot_S8x128x128_S8x128x256_S8x128x256_2_1_1_2_0_0.rhsIdx i q 1).val = (q ⟨0, by decide⟩).val :=
  dot_S8x128x128_S8x128x256_S8x128x256_2_1_1_2_0_0.rhsIdx_val_of_single rfl i q
theorem pv_rhs2 (i : S8x128x256.Idx) (q : dot_S8x128x128_S8x128x256_S8x128x256_2_1_1_2_0_0.contr.Idx) :
    (dot_S8x128x128_S8x128x256_S8x128x256_2_1_1_2_0_0.rhsIdx i q 2).val = (i 2).val := by
  unfold DotDims.rhsIdx
  rw [dif_neg (show ¬(2 : Fin S8x128x256.rank) ∈ dot_S8x128x128_S8x128x256_S8x128x256_2_1_1_2_0_0.rhsBatch by decide),
    dif_pos (show (2 : Fin S8x128x256.rank) ∈ dot_S8x128x128_S8x128x256_S8x128x256_2_1_1_2_0_0.rhsNonContracting by decide)]
  rfl

/-- The weighted values of slab `g`: row `w` of the weights against column `c` of the values, summed over the 128 rows. -/
theorem pv_apply (x : FVec Ideal S8x128x128 .bf16) (y : FVec Ideal S8x128x256 .bf16) (g : Fin 8) (w : Fin 128) (c : Fin 256) :
    matmul dot_S8x128x128_S8x128x256_S8x128x256_2_1_1_2_0_0 none x y (constant (F := Ideal) S8x128x256 .f32 0x00000000#32) (ix3 g w c)
      = ∑ v : Fin 128, x (ix3 g w v) * y (ix3 g v c) := by
  refine (Ideal.matmul_constant_zero_apply dot_S8x128x128_S8x128x256_S8x128x256_2_1_1_2_0_0 none x y (ix3 g w c)).trans ?_
  rw [← Equiv.sum_comp (contrEquiv1 dot_S8x128x128_S8x128x256_S8x128x256_2_1_1_2_0_0 128 rfl rfl).symm]
  refine Finset.sum_congr rfl fun v _ => ?_
  have hk := contrEquiv1_symm_val dot_S8x128x128_S8x128x256_S8x128x256_2_1_1_2_0_0 128 rfl rfl v
  have el : dot_S8x128x128_S8x128x256_S8x128x256_2_1_1_2_0_0.lhsIdx (ix3 g w c) ((contrEquiv1 dot_S8x128x128_S8x128x256_S8x128x256_2_1_1_2_0_0 128 rfl rfl).symm v) = ix3 g w v :=
    funext fun a => Fin.ext (by
      match a with
      | ⟨0, _⟩ => exact pv_lhs0 _ _
      | ⟨1, _⟩ => exact pv_lhs1 _ _
      | ⟨2, _⟩ => exact (pv_lhs2 _ _).trans hk)
  have er : dot_S8x128x128_S8x128x256_S8x128x256_2_1_1_2_0_0.rhsIdx (ix3 g w c) ((contrEquiv1 dot_S8x128x128_S8x128x256_S8x128x256_2_1_1_2_0_0 128 rfl rfl).symm v) = ix3 g v c :=
    funext fun a => Fin.ext (by
      match a with
      | ⟨0, _⟩ => exact pv_rhs0 _ _
      | ⟨1, _⟩ => exact (pv_rhs1 _ _).trans hk
      | ⟨2, _⟩ => exact pv_rhs2 _ _)
  rw [el, er]

/-! ## One trip of the attention stage: the row reductions and the keepdims cast -/

/-- The index of the `[8, 128, 128]` scores over `(g, w)` with `k` inserted on the reduced axis is `(g, w, k)`. -/
theorem lift_eq (g : Fin 8) (w : Fin 128) (k : Fin 128) :
    reduces_S8x128x128_S8x128.lift (ix2 g w) k = ix3 g w k :=
  funext fun a => Fin.ext (by
    match a with
    | ⟨0, _⟩ => rfl
    | ⟨1, _⟩ => rfl
    | ⟨2, _⟩ => rfl)

/-- The row sum over the last axis, from the zero word: the sum over the 128 columns. -/
theorem rowsum_apply (x : FVec Ideal S8x128x128 .f32) (hφ : FKind.Formats .f32)
    (hacc : (0x00000000#32 : BitVec 32) = FKind.add.neutral .f32 hφ) (g : Fin 8) (w : Fin 128) :
    multiReduction .add [2] S8x128 x 0x00000000#32 reduces_S8x128x128_S8x128 hφ hacc (ix2 g w)
      = ∑ v : Fin 128, x (ix3 g w v) :=
  (Ideal.multiReduction_add_single x 0x00000000#32 reduces_S8x128x128_S8x128 hφ hacc (ix2 g w)).trans
    (Finset.sum_congr rfl fun k _ => congrArg x (lift_eq g w k))

/-- The row maximum over the last axis, from the word `0xFF800000`: the fold of `max` from that word's value over the
    128 columns. The word is carried, never evaluated. -/
theorem rowmax_apply (x : FVec Ideal S8x128x128 .f32) (hφ : FKind.Formats .f32)
    (hacc : (0xFF800000#32 : BitVec 32) = FKind.maximumf.neutral .f32 hφ) (g : Fin 8) (w : Fin 128) :
    multiReduction .maximumf [2] S8x128 x 0xFF800000#32 reduces_S8x128x128_S8x128 hφ hacc (ix2 g w)
      = (Finset.univ : Finset (Fin 128)).fold max (Ideal.ofBits .f32 0xFF800000#32) (fun v => x (ix3 g w v)) :=
  (Ideal.multiReduction_maximumf_single x 0xFF800000#32 reduces_S8x128x128_S8x128 hφ hacc (ix2 g w)).trans
    (congrArg ((Finset.univ : Finset (Fin 128)).fold max (Ideal.ofBits .f32 0xFF800000#32))
      (funext fun k => congrArg x (lift_eq g w k)))

/-- A per-row value `[8, 128]`, recast `[8, 128, 1]` and broadcast along the last axis, reads the row's value at every
    column. -/
theorem keepdims_apply (x : FVec Ideal S8x128 .f32) (g : Fin 8) (w v : Fin 128) :
    broadcastTo S8x128x128 (shapeCast S8x128x1 x shapeCasts_S8x128_S8x128x1) broadcasts_S8x128x1_S8x128x128 (ix3 g w v)
      = x (ix2 g w) := by
  refine (broadcastTo_apply _ _ (ix3 g w v) (ix3 g w (0 : Fin 1)) ?_).trans ?_
  · intro a
    match a with
    | ⟨0, _⟩ => rfl
    | ⟨1, _⟩ => rfl
    | ⟨2, _⟩ => rfl
  · refine shapeCast_apply _ _ (ix3 g w (0 : Fin 1)) (ix2 g w) ?_
    rw [Shape.rowMajor_val_two, Shape.rowMajor_val_three]
    show g.val * 128 + w.val = (g.val * 128 + w.val) * 1 + 0
    omega

/-! ## One trip of the attention stage -/

/-- The shifted exponential of the kernel — the scores minus their broadcast row maximum, exponentiated — is the
    specification's on any scores `σ` the array `x` holds for slab `g`. -/
theorem expo_apply (x : FVec Ideal S8x128x128 .f32) (g : Fin 8) (σ : Fin 128 → Fin 128 → EReal)
    (hx : ∀ w v, x (ix3 g w v) = σ w v) (hφ : FKind.Formats .f32)
    (hacc : (0xFF800000#32 : BitVec 32) = FKind.maximumf.neutral .f32 hφ) (w v : Fin 128) :
    exp (subf x (broadcastTo S8x128x128
        (shapeCast S8x128x1 (multiReduction .maximumf [2] S8x128 x 0xFF800000#32 reduces_S8x128x128_S8x128 hφ hacc)
          shapeCasts_S8x128_S8x128x1) broadcasts_S8x128x1_S8x128x128)) (ix3 g w v)
      = Cert.AttnSpec.expo σ w v := by
  show Ideal.exp (x (ix3 g w v) - broadcastTo S8x128x128
        (shapeCast S8x128x1 (multiReduction .maximumf [2] S8x128 x 0xFF800000#32 reduces_S8x128x128_S8x128 hφ hacc)
          shapeCasts_S8x128_S8x128x1) broadcasts_S8x128x1_S8x128x128 (ix3 g w v))
      = Ideal.exp (σ w v - Cert.AttnSpec.rowMax σ w)
  refine congrArg Ideal.exp (congrArg₂ (· - ·) (hx w v) ?_)
  refine (keepdims_apply _ g w v).trans ?_
  refine (rowmax_apply x hφ hacc g w).trans ?_
  exact congrArg ((Finset.univ : Finset (Fin 128)).fold max (Ideal.ofBits .f32 0xFF800000#32))
    (funext fun v' => hx w v')

theorem pay1_apply (v40 v42 : Vec Ideal S8x128x32 .bf16) (v44 : Vec Ideal S8x128x256 .bf16)
    (g : Fin 8) (w : Fin 128) (c : Fin 256) :
    k0_pay1 (F := Ideal) v40 v42 v44 (ix3 g w c)
      = Cert.AttnSpec.mix (fun w' d => v40 (ix3 g w' d)) (fun v d => v42 (ix3 g v d))
          (fun v c' => v44 (ix3 g v c')) w c := by
  have hs : ∀ w' v' : Fin 128,
      matmul dot_S8x128x32_S8x128x32_S8x128x128_2_2_1_1_0_0 none v40 v42
          (constant (F := Ideal) S8x128x128 .f32 0x00000000#32) (ix3 g w' v')
        = Cert.AttnSpec.score (fun w' d => v40 (ix3 g w' d)) (fun v d => v42 (ix3 g v d)) w' v' :=
    fun w' v' => qk_apply v40 v42 g w' v'
  unfold k0_pay1
  refine (pv_apply _ v44 g w c).trans ?_
  unfold Cert.AttnSpec.mix
  refine Finset.sum_congr rfl fun v _ => congrArg (· * v44 (ix3 g v c)) ?_
  refine (truncf_apply (ψ := .bf16) _ bitsLt_bf16_f32 (ix3 g w v)).trans ?_
  refine (divf_apply _ _ (ix3 g w v)).trans ?_
  unfold Cert.AttnSpec.soft
  refine congrArg₂ Ideal.div (expo_apply _ g _ hs _ _ w v) ?_
  refine (keepdims_apply _ g w v).trans ?_
  refine (rowsum_apply _ _ _ g w).trans ?_
  exact Finset.sum_congr rfl fun v' _ => expo_apply _ g _ hs _ _ w v'

end Cert.KernelPay

end
-- ==== Proof.KernelBlock.lean ====
/-
  What the attention kernel's body leaves in its output block, as one function of the blocks it loads.

  The body first fills three projection buffers with the queries, keys and values of the block's 32 slabs (one
  whole store each), then runs four trips of a loop; trip `k` loads rows `8k … 8k+7` of the three buffers,
  computes the attention of those eight slabs and stores it at rows `8k … 8k+7` of the output block. So the
  output block is four pieces, piece `k` holding at its row `g'` the attention output of slab `8k + g'`; every
  piece is a restriction of ONE function of the block index, `blockOut`, and the four pieces cover the block.
-/
import proofs.«130289_j64252710748698_2_alg».proof.Proof.Gen.KernelIdeal.Frame
import proofs.«130289_j64252710748698_2_alg».proof.Proof.AttnSpec
import proofs.«130289_j64252710748698_2_alg».proof.Proof.KernelPay
import Idealize.ShloMosaic.Lib.Pipeline.Value
import Idealize.ShloMosaic.Lib.ValueIdx

set_option maxRecDepth 16384

noncomputable section

namespace Cert.KernelBlock

open Cert.KernelIdeal Cert.KernelIdeal.Gen Cert.AttnSpec
open Idealize.ShloMosaic Idealize.ShloMosaic.TcCoe Idealize.ShloMosaic.Tactic
open Idealize.ShloMosaic.ValueIdx
open Idealize.SL Idealize.SL.Sem

/-- The attention output of slab `g` of a block, from the block and the region's weight arrays. -/
def slabOut (x0 : Vec Ideal S32x128x256 .f32) (x1 : Vec Ideal S256x64 .bf16) (x2 : Vec Ideal S64 .f32)
    (x3 : Vec Ideal S256x256 .bf16) (x4 : Vec Ideal S256 .f32) (g : Fin 32) (w : Fin 128) (c' : Fin 256) : EReal :=
  attnOut (fun w' c'' => x0 (ix3 g w' c'')) (fun c'' d => x1 (ix2 c'' (lo d))) (fun d => x2 (ix1 (lo d)))
    (fun c'' d => x1 (ix2 c'' (hi d))) (fun d => x2 (ix1 (hi d))) (fun c'' c3 => x3 (ix2 c'' c3)) (fun c'' => x4 (ix1 c'')) w c'

/-- The block the body leaves: every slab's attention output. -/
def blockOut (x0 : Vec Ideal S32x128x256 .f32) (x1 : Vec Ideal S256x64 .bf16) (x2 : Vec Ideal S64 .f32)
    (x3 : Vec Ideal S256x256 .bf16) (x4 : Vec Ideal S256 .f32) : S32x128x256.Idx → EReal :=
  fun y => slabOut x0 x1 x2 x3 x4 (y 0) (y 1) (y 2)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- One trip of the attention loop stores one piece: the chunk's rows of the output, holding the attention of the
    chunk's rows of the three projection buffers. -/
theorem trip_piece (𝒱 : Variants) (bd : Option 𝒱.V) (c : Dev nD) (i : grid0.Coords) (arg1 : Memref sig .tc .vmem S32x128x256 .f32) (harg1 : arg1.IsWhole) (arg2 : Memref sig .tc .vmem S256x64 .bf16) (harg2 : arg2.IsWhole) (arg3 : Memref sig .tc .vmem S64 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x128x256 .f32) (harg6 : arg6.IsWhole) (arg7 : Memref sig .tc .vmem S32x128x32 .bf16) (harg7 : arg7.IsWhole) (arg8 : Memref sig .tc .vmem S32x128x32 .bf16) (harg8 : arg8.IsWhole) (arg9 : Memref sig .tc .vmem S32x128x256 .bf16) (harg9 : arg9.IsWhole)
    (X7 : BufTy.Contents (Elt Ideal) arg7.view.ty) (X8 : BufTy.Contents (Elt Ideal) arg8.view.ty) (X9 : BufTy.Contents (Elt Ideal) arg9.view.ty)
    (k : Fin k0_t1_loop.trips) :
    tripL_k0_t1 (F := Ideal) 𝒱 c bd i arg1 harg1 arg2 harg2 arg3 harg3 arg4 harg4 arg5 harg5 arg6 harg6 arg7 harg7 arg8 harg8 arg9 harg9 X7 X8 X9 k
      = [⟨Rect.unit (s := S32x128x256) (k0_off2 k) S8x128x256.size (k0_off2_inb k),
          k0_pay1 (View.readAt (Elt Ideal) arg7.view (Rect.unit (s := S32x128x32) (k0_off1 k) S8x128x32.size (k0_off1_inb k)).toLoadRect X7)
            (View.readAt (Elt Ideal) arg8.view (Rect.unit (s := S32x128x32) (k0_off1 k) S8x128x32.size (k0_off1_inb k)).toLoadRect X8)
            (View.readAt (Elt Ideal) arg9.view (Rect.unit (s := S32x128x256) (k0_off2 k) S8x128x256.size (k0_off2_inb k)).toLoadRect X9)⟩] := by
  unfold tripL_k0_t1 trip_k0_t1
  rfl

/-- A load of a whole staging buffer reads the block it holds. -/
theorem readAt_whole_unread {S : Shape} {e : EltTy} (M : Memref sig .tc .vmem S e) (hM : M.IsWhole)
    (off : Fin S.rank → Nat) (hz : off = fun _ => 0) (inb : ∀ a, off a + S.size a ≤ S.size a) (X : S.Idx → Elt Ideal e) :
    View.readAt (Elt Ideal) M.view (Rect.unit off S.size inb).toLoadRect (hM.unread X) = X := by
  rw [View.readAt_eq_ld, hM.read_unread, View.ld_unit_zero hz]

theorem trips_le : k0_t1_loop.trips ≤ 4 := k0_t1_abs.2.1

/-- Row `g'` of chunk `k` of a 32-slab buffer is slab `8k + g'` (32 columns). -/
theorem chunk_idx32 (k : Fin k0_t1_loop.trips) (g' : Fin 8) (w : Fin 128) (d : Fin 32) :
    (Rect.unit (s := S32x128x32) (k0_off1 k) S8x128x32.size (k0_off1_inb k)).toLoadRect.idx (ix3 g' w d)
      = ix3 (⟨8 * k.val + g'.val, by have := k.isLt; have := trips_le; omega⟩ : Fin 32) w d := by
  funext a; apply Fin.ext
  match a with
  | ⟨0, _⟩ =>
    show k0_off1 k (0 : Fin 3) + 1 * g'.val = 8 * k.val + g'.val
    have e : k0_off1 k (0 : Fin 3) = 8 * k.val := congrFun (k0_off1_eq k) 0
    omega
  | ⟨1, _⟩ =>
    show k0_off1 k (1 : Fin 3) + 1 * w.val = w.val
    have e : k0_off1 k (1 : Fin 3) = 0 := congrFun (k0_off1_eq k) 1
    omega
  | ⟨2, _⟩ =>
    show k0_off1 k (2 : Fin 3) + 1 * d.val = d.val
    have e : k0_off1 k (2 : Fin 3) = 0 := congrFun (k0_off1_eq k) 2
    omega

/-- Row `g'` of chunk `k` of a 32-slab buffer is slab `8k + g'` (256 columns). -/
theorem chunk_idx256 (k : Fin k0_t1_loop.trips) (g' : Fin 8) (w : Fin 128) (d : Fin 256) :
    (Rect.unit (s := S32x128x256) (k0_off2 k) S8x128x256.size (k0_off2_inb k)).toLoadRect.idx (ix3 g' w d)
      = ix3 (⟨8 * k.val + g'.val, by have := k.isLt; have := trips_le; omega⟩ : Fin 32) w d := by
  funext a; apply Fin.ext
  match a with
  | ⟨0, _⟩ =>
    show k0_off2 k (0 : Fin 3) + 1 * g'.val = 8 * k.val + g'.val
    have e : k0_off2 k (0 : Fin 3) = 8 * k.val := congrFun (k0_off2_eq k) 0
    omega
  | ⟨1, _⟩ =>
    show k0_off2 k (1 : Fin 3) + 1 * w.val = w.val
    have e : k0_off2 k (1 : Fin 3) = 0 := congrFun (k0_off2_eq k) 1
    omega
  | ⟨2, _⟩ =>
    show k0_off2 k (2 : Fin 3) + 1 * d.val = d.val
    have e : k0_off2 k (2 : Fin 3) = 0 := congrFun (k0_off2_eq k) 2
    omega

/-- What a chunk's load reads of a projection buffer filled by one whole store: the stored value at the chunk's rows. -/
theorem chunk_read {S : Shape} {e : EltTy} (M : Memref sig .tc .vmem S e) (off : Fin S.rank → Nat) (hz : off = fun _ => 0)
    (inb : ∀ a, off a + S.size a ≤ S.size a) (P : S.Idx → Elt Ideal e) (B : LoadRect S) :
    View.readAt (Elt Ideal) M.view B (M.view.writes (Elt Ideal) M.view.junk [⟨Rect.unit off S.size inb, P⟩])
      = fun j => P (B.idx j) := by
  rw [View.readAt_writes_junk_eq_canon, View.canon_unit_zero hz]

/-- The three projection buffers as the first part of the body leaves them. -/
abbrev Xq (arg7 : Memref sig .tc .vmem S32x128x32 .bf16) (x0 : Vec Ideal S32x128x256 .f32) (x1 : Vec Ideal S256x64 .bf16) (x2 : Vec Ideal S64 .f32) :
    BufTy.Contents (Elt Ideal) arg7.view.ty :=
  arg7.view.writes (Elt Ideal) arg7.view.junk
    [⟨Rect.unit (s := S32x128x32) ![0, 0, 0] S32x128x32.size inb_S32x128x32_S32x128x32_0_0_0, k0_pay4 (F := Ideal) x0 x1 x2⟩]
abbrev Xk (arg8 : Memref sig .tc .vmem S32x128x32 .bf16) (x0 : Vec Ideal S32x128x256 .f32) (x1 : Vec Ideal S256x64 .bf16) (x2 : Vec Ideal S64 .f32) :
    BufTy.Contents (Elt Ideal) arg8.view.ty :=
  arg8.view.writes (Elt Ideal) arg8.view.junk
    [⟨Rect.unit (s := S32x128x32) ![0, 0, 0] S32x128x32.size inb_S32x128x32_S32x128x32_0_0_0, k0_pay5 (F := Ideal) x0 x1 x2⟩]
abbrev Xv (arg9 : Memref sig .tc .vmem S32x128x256 .bf16) (x0 : Vec Ideal S32x128x256 .f32) (x3 : Vec Ideal S256x256 .bf16) (x4 : Vec Ideal S256 .f32) :
    BufTy.Contents (Elt Ideal) arg9.view.ty :=
  arg9.view.writes (Elt Ideal) arg9.view.junk
    [⟨Rect.unit (s := S32x128x256) ![0, 0, 0] S32x128x256.size inb_S32x128x256_S32x128x256_0_0_0, k0_pay6 (F := Ideal) x0 x3 x4⟩]

/-- The payload of trip `k`'s store, at a row of the chunk, is the attention output of that slab of the block. -/
theorem trip_payload (arg7 arg8 : Memref sig .tc .vmem S32x128x32 .bf16) (arg9 : Memref sig .tc .vmem S32x128x256 .bf16)
    (x0 : Vec Ideal S32x128x256 .f32) (x1 : Vec Ideal S256x64 .bf16) (x2 : Vec Ideal S64 .f32)
    (x3 : Vec Ideal S256x256 .bf16) (x4 : Vec Ideal S256 .f32) (k : Fin k0_t1_loop.trips) (g' : Fin 8) (w : Fin 128) (c' : Fin 256) :
    k0_pay1 (F := Ideal)
        (View.readAt (Elt Ideal) arg7.view (Rect.unit (s := S32x128x32) (k0_off1 k) S8x128x32.size (k0_off1_inb k)).toLoadRect (Xq arg7 x0 x1 x2))
        (View.readAt (Elt Ideal) arg8.view (Rect.unit (s := S32x128x32) (k0_off1 k) S8x128x32.size (k0_off1_inb k)).toLoadRect (Xk arg8 x0 x1 x2))
        (View.readAt (Elt Ideal) arg9.view (Rect.unit (s := S32x128x256) (k0_off2 k) S8x128x256.size (k0_off2_inb k)).toLoadRect (Xv arg9 x0 x3 x4))
        (ix3 g' w c')
      = slabOut x0 x1 x2 x3 x4 (⟨8 * k.val + g'.val, by have := k.isLt; have := trips_le; omega⟩ : Fin 32) w c' := by
  rw [Xq, Xk, Xv, chunk_read arg7 _ hz3, chunk_read arg8 _ hz3, chunk_read arg9 _ hz3]
  rw [Cert.KernelPay.pay1_apply]
  have e1 : (fun (w' : Fin 128) (d : Fin 32) => k0_pay4 (F := Ideal) x0 x1 x2
        ((Rect.unit (s := S32x128x32) (k0_off1 k) S8x128x32.size (k0_off1_inb k)).toLoadRect.idx (ix3 g' w' d)))
      = lin (fun w' c'' => x0 (ix3 (⟨8 * k.val + g'.val, by have := k.isLt; have := trips_le; omega⟩ : Fin 32) w' c''))
          (fun c'' d => x1 (ix2 c'' (lo d))) (fun d => x2 (ix1 (lo d))) :=
    funext fun w' => funext fun d =>
      (congrArg (k0_pay4 (F := Ideal) x0 x1 x2) (chunk_idx32 k g' w' d)).trans (Cert.KernelPay.pay4_apply x0 x1 x2 _ w' d)
  have e2 : (fun (v : Fin 128) (d : Fin 32) => k0_pay5 (F := Ideal) x0 x1 x2
        ((Rect.unit (s := S32x128x32) (k0_off1 k) S8x128x32.size (k0_off1_inb k)).toLoadRect.idx (ix3 g' v d)))
      = lin (fun w' c'' => x0 (ix3 (⟨8 * k.val + g'.val, by have := k.isLt; have := trips_le; omega⟩ : Fin 32) w' c''))
          (fun c'' d => x1 (ix2 c'' (hi d))) (fun d => x2 (ix1 (hi d))) :=
    funext fun v => funext fun d =>
      (congrArg (k0_pay5 (F := Ideal) x0 x1 x2) (chunk_idx32 k g' v d)).trans (Cert.KernelPay.pay5_apply x0 x1 x2 _ v d)
  have e3 : (fun (v : Fin 128) (c'' : Fin 256) => k0_pay6 (F := Ideal) x0 x3 x4
        ((Rect.unit (s := S32x128x256) (k0_off2 k) S8x128x256.size (k0_off2_inb k)).toLoadRect.idx (ix3 g' v c'')))
      = lin (fun w' c'' => x0 (ix3 (⟨8 * k.val + g'.val, by have := k.isLt; have := trips_le; omega⟩ : Fin 32) w' c''))
          (fun c'' c3 => x3 (ix2 c'' c3)) (fun c'' => x4 (ix1 c'')) :=
    funext fun v => funext fun c'' =>
      (congrArg (k0_pay6 (F := Ideal) x0 x3 x4) (chunk_idx256 k g' v c'')).trans (Cert.KernelPay.pay6_apply x0 x3 x4 _ v c'')
  exact congrFun (congrFun (congr (congr (congrArg mix e1) e2) e3) w) c'

/-- Every piece the trips before `n` leave holds, at each of its rows, the attention output of that slab of the block. -/
theorem pb_pieces (c : Dev nD) (i : grid0.Coords) (arg1 : Memref sig .tc .vmem S32x128x256 .f32) (harg1 : arg1.IsWhole) (arg2 : Memref sig .tc .vmem S256x64 .bf16) (harg2 : arg2.IsWhole) (arg3 : Memref sig .tc .vmem S64 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x128x256 .f32) (harg6 : arg6.IsWhole) (arg7 : Memref sig .tc .vmem S32x128x32 .bf16) (harg7 : arg7.IsWhole) (arg8 : Memref sig .tc .vmem S32x128x32 .bf16) (harg8 : arg8.IsWhole) (arg9 : Memref sig .tc .vmem S32x128x256 .bf16) (harg9 : arg9.IsWhole)
    (x0 : Vec Ideal S32x128x256 .f32) (x1 : Vec Ideal S256x64 .bf16) (x2 : Vec Ideal S64 .f32) (x3 : Vec Ideal S256x256 .bf16) (x4 : Vec Ideal S256 .f32) :
    ∀ n : ℕ, n ≤ k0_t1_loop.trips →
      ∀ p ∈ pb_k0_t1 (F := Ideal) Variants.none c none i arg1 harg1 arg2 harg2 arg3 harg3 arg4 harg4 arg5 harg5 arg6 harg6 arg7 harg7 arg8 harg8 arg9 harg9 (Xq arg7 x0 x1 x2) (Xk arg8 x0 x1 x2) (Xv arg9 x0 x3 x4) n,
        ∀ x : p.1.shape.Idx, p.2 x = blockOut x0 x1 x2 x3 x4 (p.1.emb x) := by
  intro n
  induction n with
  | zero =>
    intro _ p hp
    rw [pb_k0_t1] at hp
    exact absurd hp List.not_mem_nil
  | succ k ih =>
    intro hn p hp x
    have hk : k < k0_t1_loop.trips := hn
    rw [show k + 1 = (⟨k, hk⟩ : Fin k0_t1_loop.trips).val + 1 from rfl, pb_k0_t1_succ, trip_piece] at hp
    rcases List.mem_append.mp hp with h | h
    · obtain rfl := List.mem_singleton.mp h
      obtain ⟨g', w, c', rfl⟩ : ∃ (g' : Fin 8) (w : Fin 128) (c' : Fin 256), x = ix3 g' w c' := ⟨x 0, x 1, x 2, eq_ix3 x⟩
      refine (trip_payload arg7 arg8 arg9 x0 x1 x2 x3 x4 ⟨k, hk⟩ g' w c').trans ?_
      exact (congrArg (blockOut x0 x1 x2 x3 x4) (chunk_idx256 ⟨k, hk⟩ g' w c')).symm
    · exact ih (Nat.le_of_succ_le hn) p h x

/-- The pieces the whole body leaves in its output buffer are those of the loop's four trips over the projection buffers. -/
theorem run_pieces (c : Dev nD) (i : grid0.Coords) (arg1 : Memref sig .tc .vmem S32x128x256 .f32) (harg1 : arg1.IsWhole) (arg2 : Memref sig .tc .vmem S256x64 .bf16) (harg2 : arg2.IsWhole) (arg3 : Memref sig .tc .vmem S64 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x128x256 .f32) (harg6 : arg6.IsWhole) (arg7 : Memref sig .tc .vmem S32x128x32 .bf16) (harg7 : arg7.IsWhole) (arg8 : Memref sig .tc .vmem S32x128x32 .bf16) (harg8 : arg8.IsWhole) (arg9 : Memref sig .tc .vmem S32x128x256 .bf16) (harg9 : arg9.IsWhole)
    (x0 : Vec Ideal S32x128x256 .f32) (x1 : Vec Ideal S256x64 .bf16) (x2 : Vec Ideal S64 .f32) (x3 : Vec Ideal S256x256 .bf16) (x4 : Vec Ideal S256 .f32) :
    (kernelRun0_A (F := Ideal) c i arg1 harg1 arg2 harg2 arg3 harg3 arg4 harg4 arg5 harg5 arg6 harg6 arg7 harg7 arg8 harg8 arg9 harg9 x0 x1 x2 x3 x4).1
      = pb_k0_t1 (F := Ideal) Variants.none c none i arg1 harg1 arg2 harg2 arg3 harg3 arg4 harg4 arg5 harg5 arg6 harg6 arg7 harg7 arg8 harg8 arg9 harg9 (Xq arg7 x0 x1 x2) (Xk arg8 x0 x1 x2) (Xv arg9 x0 x3 x4) k0_t1_loop.trips := by
  unfold kernelRun0_A
  dsimp only
  sl_unfold_run_names
  rw [readAt_whole_unread arg1 harg1 _ hz3 inb_S32x128x256_S32x128x256_0_0_0 x0,
    readAt_whole_unread arg2 harg2 _ hz2 inb_S256x64_S256x64_0_0 x1,
    readAt_whole_unread arg3 harg3 _ hz1 inb_S64_S64_0 x2,
    readAt_whole_unread arg4 harg4 _ hz2 inb_S256x256_S256x256_0_0 x3,
    readAt_whole_unread arg5 harg5 _ hz1 inb_S256_S256_0 x4]

/-- WHAT THE BODY LEAVES in its output buffer: every slab's attention output. -/
theorem out_apply (c : Dev nD) (i : grid0.Coords) (arg1 : Memref sig .tc .vmem S32x128x256 .f32) (harg1 : arg1.IsWhole) (arg2 : Memref sig .tc .vmem S256x64 .bf16) (harg2 : arg2.IsWhole) (arg3 : Memref sig .tc .vmem S64 .f32) (harg3 : arg3.IsWhole) (arg4 : Memref sig .tc .vmem S256x256 .bf16) (harg4 : arg4.IsWhole) (arg5 : Memref sig .tc .vmem S256 .f32) (harg5 : arg5.IsWhole) (arg6 : Memref sig .tc .vmem S32x128x256 .f32) (harg6 : arg6.IsWhole) (arg7 : Memref sig .tc .vmem S32x128x32 .bf16) (harg7 : arg7.IsWhole) (arg8 : Memref sig .tc .vmem S32x128x32 .bf16) (harg8 : arg8.IsWhole) (arg9 : Memref sig .tc .vmem S32x128x256 .bf16) (harg9 : arg9.IsWhole)
    (x0 : Vec Ideal S32x128x256 .f32) (x1 : Vec Ideal S256x64 .bf16) (x2 : Vec Ideal S64 .f32) (x3 : Vec Ideal S256x256 .bf16) (x4 : Vec Ideal S256 .f32) (y : S32x128x256.Idx) :
    out0_A_5 (F := Ideal) c i arg1 harg1 arg2 harg2 arg3 harg3 arg4 harg4 arg5 harg5 arg6 harg6 arg7 harg7 arg8 harg8 arg9 harg9 x0 x1 x2 x3 x4 y = blockOut x0 x1 x2 x3 x4 y := by
  unfold out0_A_5
  rw [View.read_writes_junk_eq_canon]
  refine View.canon_apply_of_pieces (blockOut x0 x1 x2 x3 x4) _ ?_ y (cover0_A_5 c i arg1 harg1 arg2 harg2 arg3 harg3 arg4 harg4 arg5 harg5 arg6 harg6 arg7 harg7 arg8 harg8 arg9 harg9 x0 x1 x2 x3 x4 y)
  intro p hp x
  rw [run_pieces] at hp
  exact pb_pieces c i arg1 harg1 arg2 harg2 arg3 harg3 arg4 harg4 arg5 harg5 arg6 harg6 arg7 harg7 arg8 harg8 arg9 harg9 x0 x1 x2 x3 x4 _ le_rfl p hp x

end Cert.KernelBlock
end
-- ==== Proof.BlockGeom.lean ====
/-
  Where the blocks of the kernel's windows sit in their arrays.

  The grid has 64 points. At point `t` the slab windows (the input of 2048 slabs and the output of 2048 slabs) hold
  the 32 slabs `32 t … 32 t + 31`: element `(g, w, c)` of the block is element `(32 t + g, w, c)` of the array. The four
  weight windows hold their whole arrays at every point. The 64 output blocks together cover the output array: slab `n`
  lies in the block of point `n / 32`.
-/
import proofs.«130289_j64252710748698_2_alg».proof.Proof.Gen.KernelIdeal.Frame
import Idealize.ShloMosaic.Lib.Pipeline.Value
import Idealize.ShloMosaic.Lib.ValueIdx

noncomputable section

namespace Cert.BlockGeom

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Slab `g` of the block of point `t` is a slab of the array: `32 t + g < 2048` because there are 64 points. -/
theorem blk32 (t : Fin cfg0.N) (g : Fin 32) : 32 * t.val + g.val < 2048 := by
  have hN : cfg0.N = 64 := N_0
  have ht := t.isLt
  have hg := g.isLt
  omega

/-- The block index of the input slab window at point `t` is `(t, 0, 0)`. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The block index of the output slab window at point `t` is `(t, 0, 0)`. -/
theorem index5 : ∀ t : Fin cfg0.N, win0_5.index t (0 : Fin 3) = t.val ∧ win0_5.index t (1 : Fin 3) = 0 ∧ win0_5.index t (2 : Fin 3) = 0 :=
  (by decide +kernel : ∀ t : Fin grid0.N, _)

/-- The block indices of the four weight windows are zero at every point. -/
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 1) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 1) = 0 :=
  (by decide +kernel : ∀ t : Fin grid0.N, _)

/-- Element `(g, w, c')` of the input block of point `t` is element `(32 t + g, w, c')` of the input array. -/
theorem iblk0_apply (c : Dev nD) (t : Fin cfg0.N) (g : Fin 32) (w : Fin 128) (c' : Fin 256) :
    iblk m c 0 t (ix3 g w c') = (V m c main_v0 : S2048x128x256.Idx → EReal) (ix3 (⟨32 * t.val + g.val, blk32 t g⟩ : Fin 2048) w c') := by
  obtain ⟨e0, e1, e2⟩ := index0 t
  unfold iblk
  rw [View.read_apply]
  show V m c main_v0 _ = V m c main_v0 _
  refine congrArg (V m c main_v0) (funext fun a => Fin.ext ?_)
  match a with
  | ⟨0, _⟩ => show win0_0.index t (0 : Fin 3) * 32 + 1 * g.val = 32 * t.val + g.val; omega
  | ⟨1, _⟩ => show win0_0.index t (1 : Fin 3) * 128 + 1 * w.val = w.val; omega
  | ⟨2, _⟩ => show win0_0.index t (2 : Fin 3) * 256 + 1 * c'.val = c'.val; omega

/-- The first weight window holds its whole array at every point. -/
theorem iblk1_apply (c : Dev nD) (t : Fin cfg0.N) (a : Fin 256) (b : Fin 64) :
    iblk m c 1 t (ix2 a b) = (V m c main_v2 : S256x64.Idx → EReal) (ix2 a b) := by
  obtain ⟨e0, e1⟩ := index1 t
  unfold iblk
  rw [View.read_apply]
  show V m c main_v2 _ = V m c main_v2 _
  refine congrArg (V m c main_v2) (funext fun d => Fin.ext ?_)
  match d with
  | ⟨0, _⟩ => show win0_1.index t (0 : Fin 2) * 256 + 1 * a.val = a.val; omega
  | ⟨1, _⟩ => show win0_1.index t (1 : Fin 2) * 64 + 1 * b.val = b.val; omega

/-- The second weight window holds its whole array at every point. -/
theorem iblk2_apply (c : Dev nD) (t : Fin cfg0.N) (a : Fin 64) :
    iblk m c 2 t (ix1 a) = (V m c main_v3 : S64.Idx → EReal) (ix1 a) := by
  have e0 := index2 t
  unfold iblk
  rw [View.read_apply]
  show V m c main_v3 _ = V m c main_v3 _
  refine congrArg (V m c main_v3) (funext fun d => Fin.ext ?_)
  match d with
  | ⟨0, _⟩ => show win0_2.index t (0 : Fin 1) * 64 + 1 * a.val = a.val; omega

/-- The third weight window holds its whole array at every point. -/
theorem iblk3_apply (c : Dev nD) (t : Fin cfg0.N) (a b : Fin 256) :
    iblk m c 3 t (ix2 a b) = (V m c main_v4 : S256x256.Idx → EReal) (ix2 a b) := by
  obtain ⟨e0, e1⟩ := index3 t
  unfold iblk
  rw [View.read_apply]
  show V m c main_v4 _ = V m c main_v4 _
  refine congrArg (V m c main_v4) (funext fun d => Fin.ext ?_)
  match d with
  | ⟨0, _⟩ => show win0_3.index t (0 : Fin 2) * 256 + 1 * a.val = a.val; omega
  | ⟨1, _⟩ => show win0_3.index t (1 : Fin 2) * 256 + 1 * b.val = b.val; omega

/-- The fourth weight window holds its whole array at every point. -/
theorem iblk4_apply (c : Dev nD) (t : Fin cfg0.N) (a : Fin 256) :
    iblk m c 4 t (ix1 a) = (V m c main_arg6 : S256.Idx → EReal) (ix1 a) := by
  have e0 := index4 t
  unfold iblk
  rw [View.read_apply]
  show V m c main_arg6 _ = V m c main_arg6 _
  refine congrArg (V m c main_arg6) (funext fun d => Fin.ext ?_)
  match d with
  | ⟨0, _⟩ => show win0_4.index t (0 : Fin 1) * 256 + 1 * a.val = a.val; omega

/-- Element `(g, w, c')` of the output block of point `t` sits at `(32 t + g, w, c')` of the output array. -/
theorem emb5_apply (t : Fin cfg0.N) (g : Fin 32) (w : Fin 128) (c' : Fin 256) :
    (((cfg0.win 5).blk t).view.emb (ix3 g w c') : S2048x128x256.Idx) = ix3 (⟨32 * t.val + g.val, blk32 t g⟩ : Fin 2048) w c' := by
  obtain ⟨e0, e1, e2⟩ := index5 t
  refine funext fun a => Fin.ext ?_
  match a with
  | ⟨0, _⟩ => show win0_5.index t (0 : Fin 3) * 32 + 1 * g.val = 32 * t.val + g.val; omega
  | ⟨1, _⟩ => show win0_5.index t (1 : Fin 3) * 128 + 1 * w.val = w.val; omega
  | ⟨2, _⟩ => show win0_5.index t (2 : Fin 3) * 256 + 1 * c'.val = c'.val; omega

/-- An index of the output array is in the block of point `t` iff each coordinate is in the block's range on its axis. -/
theorem mem_blk5 (t : Fin cfg0.N) (i : S2048x128x256.Idx) :
    i ∈ ((cfg0.win 5).blk t).view.set ↔ ∀ a : Fin 3, win0_5.index t a * S32x128x256.size a ≤ (i a).val ∧ (i a).val < win0_5.index t a * S32x128x256.size a + S32x128x256.size a := by
  show i ∈ ((View.whole main_v5).slice (win0_5.rect t)).set ↔ _
  rw [View.set_slice_whole, Rect.mem_set_unit]
  exact Iff.rfl

/-- Every index of the output array is in the block of a point that writes back: slab `n` is in the block of point `n / 32`. -/
theorem cover5 : ∀ i : S2048x128x256.Idx, ∃ t : Fin cfg0.N, (cfg0.win 5).flush t = true ∧ i ∈ ((cfg0.win 5).blk t).view.set := by
  intro i
  obtain ⟨n, w, c', rfl⟩ : ∃ (n : Fin 2048) (w : Fin 128) (c' : Fin 256), i = ix3 n w c' := ⟨i 0, i 1, i 2, eq_ix3 i⟩
  have hN : cfg0.N = 64 := N_0
  have hn := n.isLt
  have hw := w.isLt
  have hc := c'.isLt
  let t : Fin cfg0.N := ⟨n.val / 32, by omega⟩
  have ht : t.val = n.val / 32 := rfl
  obtain ⟨e0, e1, e2⟩ := index5 t
  refine ⟨t, flush0_5 t, ?_⟩
  rw [mem_blk5]
  intro a
  match a with
  | ⟨0, _⟩ => show win0_5.index t (0 : Fin 3) * 32 ≤ n.val ∧ n.val < win0_5.index t (0 : Fin 3) * 32 + 32; omega
  | ⟨1, _⟩ => show win0_5.index t (1 : Fin 3) * 128 ≤ w.val ∧ w.val < win0_5.index t (1 : Fin 3) * 128 + 128; omega
  | ⟨2, _⟩ => show win0_5.index t (2 : Fin 3) * 256 ≤ c'.val ∧ c'.val < win0_5.index t (2 : Fin 3) * 256 + 256; omega

end Cert.BlockGeom

end
-- ==== Proof.HostIn.lean ====
/-
  The arrays the attention kernel's region finds, read at an index as functions of the program's arguments.

  Before the region the program re-lays the input [16, 128, 128, 256] as [2048, 128, 256] (slab `n = 128·b + h`),
  joins the query and key weights side by side into one [256, 64] array (and their biases into one [64] vector)
  and changes the format of the weights, which on the extended reals is the identity. So slab `n` of the
  region's first array is slab `(n / 128, n % 128)` of the input, the left half of the joined weights is the
  query weights and the right half the key weights.
-/
import proofs.«130289_j64252710748698_2_alg».proof.Proof.Gen.KernelIdeal.Frame
import proofs.«130289_j64252710748698_2_alg».proof.Proof.AttnSpec
import Idealize.ShloMosaic.Lib.Pipeline.Value
import Idealize.ShloMosaic.Lib.ValueIdx
import Idealize.ShloMosaic.Lib.StableHlo.Run

set_option maxRecDepth 16384

noncomputable section

namespace Cert.HostIn

open Cert.KernelIdeal Cert.KernelIdeal.Gen Cert.AttnSpec
open Idealize.ShloMosaic Idealize.ShloMosaic.TcCoe Idealize.ShloMosaic.Tactic Idealize.ShloMosaic.StableHlo
open Idealize.ShloMosaic.ValueIdx
open Idealize.SL Idealize.SL.Sem

variable (m : (ℓ : Loc nD τ sig) → Buf (Elt Ideal) ℓ)

/-- The region's first array is the input re-laid with the two leading axes merged. -/
theorem V_v0 (c : Dev nD) :
    (V m c main_v0 : S2048x128x256.Idx → EReal)
      = shapeCast S2048x128x256 (m ((c : Thread nD τ).loc main_arg0)) shapeCasts_S16x128x128x256_S2048x128x256 := by
  show StableHlo.after hostOps0 (fun b => m (c, b)) (Proc.devRef .tc main_v0) = _
  after_results
  rfl

/-- Slab `n` of it is slab `(n / 128, n % 128)` of the input. -/
theorem V_v0_apply (c : Dev nD) (n : Fin 2048) (w : Fin 128) (c' : Fin 256) :
    (V m c main_v0 : S2048x128x256.Idx → EReal) (ix3 n w c')
      = (m ((c : Thread nD τ).loc main_arg0) : S16x128x128x256.Idx → EReal)
          (ix4 (⟨n.val / 128, by have := n.isLt; omega⟩ : Fin 16) (⟨n.val % 128, by omega⟩ : Fin 128) w c') := by
  rw [V_v0]
  refine shapeCast_apply _ _ _ _ ?_
  refine (Shape.rowMajor_val_four (d := ![16, 128, 128, 256]) _).trans
    (Eq.trans ?_ (Shape.rowMajor_val_three (d := ![2048, 128, 256]) _).symm)
  show ((n.val / 128 * 128 + n.val % 128) * 128 + w.val) * 256 + c'.val = (n.val * 128 + w.val) * 256 + c'.val
  have := Nat.div_add_mod n.val 128
  omega

/-- The fused query/key weights: the two weight arrays side by side, in the narrower format. -/
theorem V_v2 (c : Dev nD) :
    (V m c main_v2 : S256x64.Idx → EReal)
      = truncf (F := Ideal) .bf16 (concatenate S256x64 1 [⟨S256x32, m ((c : Thread nD τ).loc main_arg1)⟩, ⟨S256x32, m ((c : Thread nD τ).loc main_arg3)⟩]
          concatenates_S256x32_S256x32_S256x64_d1) bitsLt_bf16_f32 := by
  show StableHlo.after hostOps0 (fun b => m (c, b)) (Proc.devRef .tc main_v2) = _
  after_results
  all_goals rfl

/-- Its left half is the query weights. -/
theorem V_v2_lo (c : Dev nD) (c' : Fin 256) (d : Fin 32) :
    (V m c main_v2 : S256x64.Idx → EReal) (ix2 c' (lo d))
      = (m ((c : Thread nD τ).loc main_arg1) : S256x32.Idx → EReal) (ix2 c' d) := by
  rw [V_v2]
  refine (truncf_apply (ψ := .bf16) _ bitsLt_bf16_f32 _).trans ?_
  refine concatenate_pair_apply_left (t := S256x64) (s₁ := S256x32) (s₂ := S256x32) (1 : Fin 2) _ _ _ _ rfl (ix2 c' d) ?_
  intro b
  match b with
  | ⟨0, _⟩ => rfl
  | ⟨1, _⟩ => rfl

/-- Its right half is the key weights. -/
theorem V_v2_hi (c : Dev nD) (c' : Fin 256) (d : Fin 32) :
    (V m c main_v2 : S256x64.Idx → EReal) (ix2 c' (hi d))
      = (m ((c : Thread nD τ).loc main_arg3) : S256x32.Idx → EReal) (ix2 c' d) := by
  rw [V_v2]
  refine (truncf_apply (ψ := .bf16) _ bitsLt_bf16_f32 _).trans ?_
  refine concatenate_pair_apply_right (t := S256x64) (s₁ := S256x32) (s₂ := S256x32) (1 : Fin 2) _ _ _ _ rfl rfl (ix2 c' d) ?_ ?_
  · intro b hb
    match b with
    | ⟨0, _⟩ => rfl
    | ⟨1, _⟩ => exact absurd rfl hb
  · show d.val + 32 = 32 + d.val
    omega

/-- The fused query/key biases: the two bias vectors end to end. -/
theorem V_v3 (c : Dev nD) :
    (V m c main_v3 : S64.Idx → EReal)
      = concatenate S64 0 [⟨S32, m ((c : Thread nD τ).loc main_arg2)⟩, ⟨S32, m ((c : Thread nD τ).loc main_arg4)⟩]
          concatenates_S32_S32_S64_d0 := by
  show StableHlo.after hostOps0 (fun b => m (c, b)) (Proc.devRef .tc main_v3) = _
  after_results
  all_goals rfl

/-- Its first half is the query bias. -/
theorem V_v3_lo (c : Dev nD) (d : Fin 32) :
    (V m c main_v3 : S64.Idx → EReal) (ix1 (lo d)) = (m ((c : Thread nD τ).loc main_arg2) : S32.Idx → EReal) (ix1 d) := by
  rw [V_v3]
  refine concatenate_pair_apply_left (t := S64) (s₁ := S32) (s₂ := S32) (0 : Fin 1) _ _ _ _ rfl (ix1 d) ?_
  intro b
  match b with
  | ⟨0, _⟩ => rfl

/-- Its second half is the key bias. -/
theorem V_v3_hi (c : Dev nD) (d : Fin 32) :
    (V m c main_v3 : S64.Idx → EReal) (ix1 (hi d)) = (m ((c : Thread nD τ).loc main_arg4) : S32.Idx → EReal) (ix1 d) := by
  rw [V_v3]
  refine concatenate_pair_apply_right (t := S64) (s₁ := S32) (s₂ := S32) (0 : Fin 1) _ _ _ _ rfl rfl (ix1 d) ?_ ?_
  · intro b hb
    match b with
    | ⟨0, _⟩ => exact absurd rfl hb
  · show d.val + 32 = 32 + d.val
    omega

/-- The value weights reach the region unchanged but for their format. -/
theorem V_v4 (c : Dev nD) :
    (V m c main_v4 : S256x256.Idx → EReal) = (m ((c : Thread nD τ).loc main_arg5) : S256x256.Idx → EReal) := by
  show StableHlo.after hostOps0 (fun b => m (c, b)) (Proc.devRef .tc main_v4) = _
  after_results
  all_goals rfl

end Cert.HostIn

end
-- ==== Proof.KernelArray.lean ====
/-
  The kernel program's result array as one function of its arguments.

  Point `t` of the grid writes back block `t` of the [2048, 128, 256] result: slabs `32t … 32t+31`, each the
  attention output of the same slab of the re-laid input under the fused weights. The 64 blocks tile the array, so
  after the region the array holds, at slab `n`, the attention output of slab `n` of the re-laid input. The
  program then re-lays the result as [16, 128, 128, 256]: slab `(b, h)` of the final result is slab `128·b + h`
  of that array, which is the attention output of slab `(b, h)` of the input under the separate weights.
-/
import proofs.«130289_j64252710748698_2_alg».proof.Proof.Gen.KernelIdeal.Frame
import proofs.«130289_j64252710748698_2_alg».proof.Proof.AttnSpec
import proofs.«130289_j64252710748698_2_alg».proof.Proof.KernelBlock
import proofs.«130289_j64252710748698_2_alg».proof.Proof.BlockGeom
import proofs.«130289_j64252710748698_2_alg».proof.Proof.HostIn
import Idealize.ShloMosaic.Lib.Pipeline.Value
import Idealize.ShloMosaic.Lib.ValueIdx
import Idealize.ShloMosaic.Lib.StableHlo.Run

set_option maxRecDepth 16384

noncomputable section

namespace Cert.KernelArray

open Cert.KernelIdeal Cert.KernelIdeal.Gen Cert.AttnSpec Cert.KernelBlock
open Idealize.ShloMosaic Idealize.ShloMosaic.TcCoe Idealize.ShloMosaic.Tactic Idealize.ShloMosaic.StableHlo
open Idealize.ShloMosaic.ValueIdx
open Idealize.ShloMosaic.Pipeline (Dat)
open Idealize.SL Idealize.SL.Sem

/-- The attention output of slab `n` of a [2048, 128, 256] array under fused [256, 64] / [64] query-key weights. -/
def arrOut (A0 : S2048x128x256.Idx → EReal) (A1 : S256x64.Idx → EReal) (A2 : S64.Idx → EReal)
    (A3 : S256x256.Idx → EReal) (A4 : S256.Idx → EReal) (n : Fin 2048) (w : Fin 128) (c' : Fin 256) : EReal :=
  attnOut (fun w' c'' => A0 (ix3 n w' c'')) (fun c'' d => A1 (ix2 c'' (lo d))) (fun d => A2 (ix1 (lo d)))
    (fun c'' d => A1 (ix2 c'' (hi d))) (fun d => A2 (ix1 (hi d))) (fun c'' c3 => A3 (ix2 c'' c3)) (fun c'' => A4 (ix1 c'')) w c'

/-- A block's slab `g` is the array's slab `n` when the block's loads read the arrays there. -/
theorem slabOut_eq_arrOut (x0 : Vec Ideal S32x128x256 .f32) (x1 : Vec Ideal S256x64 .bf16) (x2 : Vec Ideal S64 .f32)
    (x3 : Vec Ideal S256x256 .bf16) (x4 : Vec Ideal S256 .f32)
    (A0 : S2048x128x256.Idx → EReal) (A1 : S256x64.Idx → EReal) (A2 : S64.Idx → EReal)
    (A3 : S256x256.Idx → EReal) (A4 : S256.Idx → EReal) (g : Fin 32) (n : Fin 2048)
    (h0 : ∀ (w : Fin 128) (c' : Fin 256), x0 (ix3 g w c') = A0 (ix3 n w c'))
    (h1 : ∀ (a : Fin 256) (b : Fin 64), x1 (ix2 a b) = A1 (ix2 a b)) (h2 : ∀ a : Fin 64, x2 (ix1 a) = A2 (ix1 a))
    (h3 : ∀ a b : Fin 256, x3 (ix2 a b) = A3 (ix2 a b)) (h4 : ∀ a : Fin 256, x4 (ix1 a) = A4 (ix1 a))
    (w : Fin 128) (c' : Fin 256) :
    slabOut x0 x1 x2 x3 x4 g w c' = arrOut A0 A1 A2 A3 A4 n w c' := by
  unfold slabOut arrOut
  simp only [h0, h1, h2, h3, h4]

/-- The same function from the program's arguments: slab `n` of the re-laid input is slab `(b, h)` of the input, the
    halves of the fused weights the separate ones. -/
theorem arrOut_eq_attnOut (A0 : S2048x128x256.Idx → EReal) (A1 : S256x64.Idx → EReal) (A2 : S64.Idx → EReal)
    (A3 : S256x256.Idx → EReal) (A4 : S256.Idx → EReal)
    (X0 : S16x128x128x256.Idx → EReal) (X1 X3 : S256x32.Idx → EReal) (X2 X4 : S32.Idx → EReal)
    (X5 : S256x256.Idx → EReal) (X6 : S256.Idx → EReal) (n : Fin 2048) (b : Fin 16) (h : Fin 128)
    (h0 : ∀ (w : Fin 128) (c' : Fin 256), A0 (ix3 n w c') = X0 (ix4 b h w c'))
    (h1l : ∀ (a : Fin 256) (d : Fin 32), A1 (ix2 a (lo d)) = X1 (ix2 a d))
    (h1h : ∀ (a : Fin 256) (d : Fin 32), A1 (ix2 a (hi d)) = X3 (ix2 a d))
    (h2l : ∀ d : Fin 32, A2 (ix1 (lo d)) = X2 (ix1 d)) (h2h : ∀ d : Fin 32, A2 (ix1 (hi d)) = X4 (ix1 d))
    (h3 : ∀ a b : Fin 256, A3 (ix2 a b) = X5 (ix2 a b)) (h4 : ∀ a : Fin 256, A4 (ix1 a) = X6 (ix1 a))
    (w : Fin 128) (c' : Fin 256) :
    arrOut A0 A1 A2 A3 A4 n w c'
      = attnOut (fun w' c'' => X0 (ix4 b h w' c'')) (fun c'' d => X1 (ix2 c'' d)) (fun d => X2 (ix1 d))
          (fun c'' d => X3 (ix2 c'' d)) (fun d => X4 (ix1 d)) (fun c'' c3 => X5 (ix2 c'' c3)) (fun c'' => X6 (ix1 c'')) w c' := by
  unfold arrOut
  simp only [h0, h1l, h1h, h2l, h2h, h3, h4]

variable (m : (ℓ : Loc nD τ sig) → Buf (Elt Ideal) ℓ) (ρ : Dev nD → PrngReg)

/-- The [2048, 128, 256] result array after the region, as a function of the arrays the region finds. -/
def G3 (c : Dev nD) : S2048x128x256.Idx → EReal := fun i =>
  arrOut (V m c main_v0) (V m c main_v2) (V m c main_v3) (V m c main_v4) (V m c main_arg6) (i 0) (i 1) (i 2)

/-- WHAT POINT `t` WRITES BACK is block `t` of `G3`. -/
theorem flushed_eq (c : Dev nD) (t : Fin cfg0.N) :
    (dats m 0 c).flushed 5 t = ((cfg0.win 5).blk t).view.read (Elt Ideal) (G3 m c) := by
  show (cfg0.win 5).cut (grid0.coords t) ((dats m 0 c).after 5 t) = _
  rw [after0_5]
  funext y
  obtain ⟨g, w, c', rfl⟩ : ∃ (g : Fin 32) (w : Fin 128) (c' : Fin 256), y = ix3 g w c' := ⟨y 0, y 1, y 2, eq_ix3 y⟩
  show outsAt0 m c t (ix3 g w c') = G3 m c (((cfg0.win 5).blk t).view.emb (ix3 g w c'))
  rw [Cert.BlockGeom.emb5_apply]
  unfold outsAt0
  rw [Cert.KernelBlock.out_apply]
  exact slabOut_eq_arrOut (iblk m c 0 t) (iblk m c 1 t) (iblk m c 2 t) (iblk m c 3 t) (iblk m c 4 t)
    (V m c main_v0) (V m c main_v2) (V m c main_v3) (V m c main_v4) (V m c main_arg6) g
    (⟨32 * t.val + g.val, Cert.BlockGeom.blk32 t g⟩ : Fin 2048)
    (Cert.BlockGeom.iblk0_apply m c t g) (Cert.BlockGeom.iblk1_apply m c t) (Cert.BlockGeom.iblk2_apply m c t)
    (Cert.BlockGeom.iblk3_apply m c t) (Cert.BlockGeom.iblk4_apply m c t) w c'

/-- THE ARRAY after the region: `G3`. -/
theorem final (c : Dev nD) : (dats m 0 c).arrAt 5 cfg0.N = G3 m c :=
  (dats m 0 c).arrAt_eq_of_cover 5 (G3 m c) (fun t _ => flushed_eq m c t) Cert.BlockGeom.cover5

/-- The program's result as a function of its arguments: at slab `(b, h)` the attention output of that slab of the input. -/
def result (c : Dev nD) : S16x128x128x256.Idx → EReal := fun i =>
  attnOut (fun w' c'' => (m ((c : Thread nD τ).loc main_arg0) : S16x128x128x256.Idx → EReal) (ix4 (i 0) (i 1) w' c''))
    (fun c'' d => (m ((c : Thread nD τ).loc main_arg1) : S256x32.Idx → EReal) (ix2 c'' d))
    (fun d => (m ((c : Thread nD τ).loc main_arg2) : S32.Idx → EReal) (ix1 d))
    (fun c'' d => (m ((c : Thread nD τ).loc main_arg3) : S256x32.Idx → EReal) (ix2 c'' d))
    (fun d => (m ((c : Thread nD τ).loc main_arg4) : S32.Idx → EReal) (ix1 d))
    (fun c'' c3 => (m ((c : Thread nD τ).loc main_arg5) : S256x256.Idx → EReal) (ix2 c'' c3))
    (fun c'' => (m ((c : Thread nD τ).loc main_arg6) : S256.Idx → EReal) (ix1 c'')) (i 2) (i 3)

/-- Slab `128·b + h` of the re-laid input is slab `(b, h)` of the input. -/
theorem V_v0_slab (c : Dev nD) (b : Fin 16) (h : Fin 128) (w : Fin 128) (c' : Fin 256) :
    (V m c main_v0 : S2048x128x256.Idx → EReal)
        (ix3 (⟨128 * b.val + h.val, by have := b.isLt; have := h.isLt; omega⟩ : Fin 2048) w c')
      = (m ((c : Thread nD τ).loc main_arg0) : S16x128x128x256.Idx → EReal) (ix4 b h w c') := by
  refine (Cert.HostIn.V_v0_apply m c _ w c').trans (congrArg _ ?_)
  funext a; apply Fin.ext
  match a with
  | ⟨0, _⟩ => show (128 * b.val + h.val) / 128 = b.val; have := h.isLt; omega
  | ⟨1, _⟩ => show (128 * b.val + h.val) % 128 = h.val; have := h.isLt; omega
  | ⟨2, _⟩ => rfl
  | ⟨3, _⟩ => rfl

/-- `G3` at slab `128·b + h` is the result at slab `(b, h)`. -/
theorem G3_slab (c : Dev nD) (b : Fin 16) (h : Fin 128) (w : Fin 128) (c' : Fin 256) :
    G3 m c (ix3 (⟨128 * b.val + h.val, by have := b.isLt; have := h.isLt; omega⟩ : Fin 2048) w c')
      = result m c (ix4 b h w c') :=
  arrOut_eq_attnOut (V m c main_v0) (V m c main_v2) (V m c main_v3) (V m c main_v4) (V m c main_arg6)
    (m ((c : Thread nD τ).loc main_arg0)) (m ((c : Thread nD τ).loc main_arg1)) (m ((c : Thread nD τ).loc main_arg3))
    (m ((c : Thread nD τ).loc main_arg2)) (m ((c : Thread nD τ).loc main_arg4)) (m ((c : Thread nD τ).loc main_arg5))
    (m ((c : Thread nD τ).loc main_arg6)) _ b h
    (V_v0_slab m c b h) (Cert.HostIn.V_v2_lo m c) (Cert.HostIn.V_v2_hi m c) (Cert.HostIn.V_v3_lo m c) (Cert.HostIn.V_v3_hi m c)
    (fun a b' => congrFun (Cert.HostIn.V_v4 m c) (ix2 a b')) (fun a => congrFun (V_main_arg6 m c) (ix1 a)) w c'

/-- The result buffer after the program's last re-laying. -/
theorem tail_eq (c : Dev nD) :
    Pipeline.afterTail₀ cfgs (dats m) 0 (V0 m) [hostOps1] c main_v6 = result m c := by
  have hW : Pipeline.withArrays (cfgs 0).spec c (V0 m c) (fun w => (dats m 0 c).arrAt w (cfgs 0).N) (Proc.devRef .tc main_v5)
      = G3 m c :=
    (Pipeline.withArrays_arr spec0 launch0.win.arr_inj c _ _ 5).trans (final m c)
  unfold Pipeline.afterTail₀
  show StableHlo.after hostOps1 _ (Proc.devRef .tc main_v6) = _
  after_results
  funext i
  obtain ⟨b, h, w, c', rfl⟩ : ∃ (b : Fin 16) (h w : Fin 128) (c' : Fin 256), i = ix4 b h w c' := ⟨i 0, i 1, i 2, i 3, eq_ix4 i⟩
  show shapeCast S16x128x128x256 _ shapeCasts_S2048x128x256_S16x128x128x256 (ix4 b h w c') = _
  refine (shapeCast_apply _ _ _ (ix3 (⟨128 * b.val + h.val, by have := b.isLt; have := h.isLt; omega⟩ : Fin 2048) w c') ?_).trans ?_
  · refine (Shape.rowMajor_val_three (d := ![2048, 128, 256]) _).trans
      (Eq.trans ?_ (Shape.rowMajor_val_four (d := ![16, 128, 128, 256]) _).symm)
    show ((128 * b.val + h.val) * 128 + w.val) * 256 + c'.val = ((b.val * 128 + h.val) * 128 + w.val) * 256 + c'.val
    omega
  · exact (congrFun hW _).trans (G3_slab m c b h w c')

/-- THE RUN, READ: every weakly fair execution of the kernel program terminates with the result buffer at
    `result` of the arguments, the arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c)))⟩)
    (run_main m ρ)

end Cert.KernelArray

end
-- ==== Proof.lean ====
/-
  The certificate of the fused self-attention kernel against its jnp reference: `Cert.Claim`.

  Both programs compute, for each of the 16·128 slabs `(b, h)` of the input (128 rows of 256 channels),
      q = x·Wq + bq,   k = x·Wk + bk,   val = x·Wv + bv,   s = q·kᵀ,   p = softmax of s along its rows (shifted by
      the row maximum),   out = p·val.
  The kernel merges the two leading axes, joins the query and key weights into one [256, 64] array, and works on 32
  slabs per grid point: one projection of the whole block into three buffers, then a loop over chunks of 8 slabs
  that computes the attention and stores it. The reference does the same arithmetic on the whole arrays at once.
  On the extended reals the format changes are the identity, a matrix product into zeros is the plain sum of
  products, and the sums, maxima, exponentials and quotients of the two programs are the same terms in the same
  grouping; so no law beyond commutative re-indexing is needed and the finiteness precondition is never opened.
  The one extra operation of the reference, the maximum of the row maximum with the value it was folded from,
  changes nothing (`AttnSpec.max_fold_self`).

  The modules: `AttnSpec` (the attention of one slab as a function, index by index); `RefAttn` (the reference
  at an index is that function of the slab); `KernelPay` (the kernel body's pure values at an index);
  `KernelBlock` (what the body leaves in its output block: four pieces of one function); `BlockGeom` (where
  blocks sit in their arrays); `HostIn` (the arrays the region finds as functions of the arguments);
  `KernelArray` (the result array after all grid points and the final re-laying). The frames of the two kernel
  programs are the generated ones; the reference's frame is its generated run.
-/
import proofs.«130289_j64252710748698_2_alg».proof.Defs
import proofs.«130289_j64252710748698_2_alg».proof.Proof.Gen.Kernel
import proofs.«130289_j64252710748698_2_alg».proof.Proof.Gen.Kernel.Frame
import proofs.«130289_j64252710748698_2_alg».proof.Proof.Gen.KernelIdeal
import proofs.«130289_j64252710748698_2_alg».proof.Proof.Gen.KernelIdeal.Frame
import proofs.«130289_j64252710748698_2_alg».proof.Proof.Gen.ReferenceIdeal
import proofs.«130289_j64252710748698_2_alg».proof.Proof.Gen.Pre_finite_inputs
import proofs.«130289_j64252710748698_2_alg».proof.Proof.Gen.ReferenceIdeal.Run
import proofs.«130289_j64252710748698_2_alg».proof.Proof.Gen.ReferenceIdeal.Read
import proofs.«130289_j64252710748698_2_alg».proof.Proof.RefAttn
import proofs.«130289_j64252710748698_2_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the attention output of every slab. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2.1, (hagree c).2.2.2.2.2.1, (hagree c).2.2.2.2.2.2]
  funext i
  obtain ⟨b, h, w, c', rfl⟩ : ∃ (b : Fin 16) (h w : Fin 128) (c' : Fin 256), i = ix4 b h w c' := ⟨i 0, i 1, i 2, i 3, eq_ix4 i⟩
  exact Cert.RefAttn.ref_apply _ _ _ _ _ _ _ b h w c'

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
